-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x2048 : Shape := ⟨3, ![64, 256, 2048]⟩
abbrev S64x2048 : Shape := ⟨2, ![64, 2048]⟩
abbrev S64 : Shape := ⟨1, ![64]⟩
abbrev S1024x2048 : Shape := ⟨2, ![1024, 2048]⟩
abbrev S1024 : Shape := ⟨1, ![1024]⟩
abbrev S_ : Shape := ⟨0, ![]⟩

class Facts : Prop where
  bcast_S_S64x256x2048 : S_.BroadcastsInDim S64x256x2048 (![] : Fin 0 → Fin S64x256x2048.rank)
  reducesTo_S64x256x2048_S_d0_1_2 : S64x256x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S64x2048 .f32) (main_arg5 : FVec F S64 .f32) (main_arg6 : FVec F S64 .f32) (main_arg7 : FVec F S1024x2048 .f32) (main_arg8 : FVec F S1024 .f32) (main_arg9 : FVec F S1024 .f32) (main_arg10 : FVec F S1024 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x2048 .f32 := Host.absf main_arg4
  let main_cst_6 : FVec F S_ .f32 := constant S_ .f32 0x7F800000#32
  let main_v20 : FVec F S64x2048 .f32 := broadcastInDim S64x2048 ![] bcast_S_S64x2048 main_cst_6
  let main_v21 : IVec S64x2048 1 := cmpf .olt main_v19 main_v20
  let main_c_7 : IVec S_ 1 := constantI S_ 1 1#1
  let main_v22 : IVec S_ 1 := (fun x v => Host.reduce IntOp.andi x v reducesTo_S64x2048_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x256x2048 .f32) (main_arg1 : FVec F S64x2048 .f32) (main_arg2 : FVec F S64 .f32) (main_arg3 : FVec F S64 .f32) (main_arg4 : FVec F S64x2048 .f32) (main_arg5 : FVec F S64 .f32) (main_arg6 : FVec F S64 .f32) (main_arg7 : FVec F S1024x2048 .f32) (main_arg8 : FVec F S1024 .f32) (main_arg9 : FVec F S1024 .f32) (main_arg10 : FVec F S1024 .f32) : IVec S_ 1 :=
  let main_v0 : FVec F S64x256x2048 .f32 := Host.absf main_arg0
  let main_cst : FVec F S_ .f32 := constant S_ .f32 0x7F800000#32
  let main_v1 : FVec F S64x256x2048 .f32 := broadcastInDim S64x256x2048 ![] bcast_S_S64x256x2048 main_cst
  let main_v2 : IVec S64x256x2048 1 := cmpf .olt main_v0 main_v1
  let main_c : IVec S_ 1 := constantI S_ 1 1#1
  let main_v3 : IVec S_ 1 := (fun x v => Host.reduce IntOp.andi x v reducesTo_S64x256x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_v13 main_v16
-- ==== Kernel.lean ====
abbrev S64x256x2048 : Shape := ⟨3, ![64, 256, 2048]⟩
abbrev S64x2048 : Shape := ⟨2, ![64, 2048]⟩
abbrev S64 : Shape := ⟨1, ![64]⟩
abbrev S1024x2048 : Shape := ⟨2, ![1024, 2048]⟩
abbrev S1024 : Shape := ⟨1, ![1024]⟩
abbrev S_ : Shape := ⟨0, ![]⟩
abbrev S64x1 : Shape := ⟨2, ![64, 1]⟩
abbrev S128x2048 : Shape := ⟨2, ![128, 2048]⟩
abbrev S128 : Shape := ⟨1, ![128]⟩
abbrev S1x128 : Shape := ⟨2, ![1, 128]⟩
abbrev S64x1x2048 : Shape := ⟨3, ![64, 1, 2048]⟩
abbrev S4x256x2048 : Shape := ⟨3, ![4, 256, 2048]⟩
abbrev S4x1x2048 : Shape := ⟨3, ![4, 1, 2048]⟩
abbrev S1024x128 : Shape := ⟨2, ![1024, 128]⟩
abbrev S4x256x128 : Shape := ⟨3, ![4, 256, 128]⟩
abbrev S4x256x64 : Shape := ⟨3, ![4, 256, 64]⟩
abbrev S4x256 : Shape := ⟨2, ![4, 256]⟩
abbrev S4x256x1 : Shape := ⟨3, ![4, 256, 1]⟩
abbrev S4x64 : Shape := ⟨2, ![4, 64]⟩
abbrev S4x1x64 : Shape := ⟨3, ![4, 1, 64]⟩
abbrev S4x2048 : Shape := ⟨2, ![4, 2048]⟩
abbrev S1x1024 : Shape := ⟨2, ![1, 1024]⟩
abbrev S64x1024 : Shape := ⟨2, ![64, 1024]⟩

abbrev nBuf : Space → Nat
  | .hbm => 36
  | .vmem => 12
  | .smem => 0
  | _ => 0

abbrev bufTy : (tb : Table) → Fin (tcTables nBuf tb) → BufTy
  | .hbm, ⟨0, _⟩ => ⟨S64x256x2048, .f32⟩
  | .hbm, ⟨1, _⟩ => ⟨S64x2048, .f32⟩
  | .hbm, ⟨2, _⟩ => ⟨S64, .f32⟩
  | .hbm, ⟨3, _⟩ => ⟨S64, .f32⟩
  | .hbm, ⟨4, _⟩ => ⟨S64x2048, .f32⟩
  | .hbm, ⟨5, _⟩ => ⟨S64, .f32⟩
  | .hbm, ⟨6, _⟩ => ⟨S64, .f32⟩
  | .hbm, ⟨7, _⟩ => ⟨S1024x2048, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S64x2048, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x1, .f32⟩
  | .hbm, ⟨17, _⟩ => ⟨S64x2048, .f32⟩
  | .hbm, ⟨18, _⟩ => ⟨S64x2048, .f32⟩
  | .hbm, ⟨19, _⟩ => ⟨S64x2048, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64x1, .f32⟩
  | .hbm, ⟨25, _⟩ => ⟨S64x2048, .f32⟩
  | .hbm, ⟨26, _⟩ => ⟨S64x2048, .f32⟩
  | .hbm, ⟨27, _⟩ => ⟨S128x2048, .f32⟩
  | .hbm, ⟨28, _⟩ => ⟨S128, .f32⟩
  | .hbm, ⟨29, _⟩ => ⟨S1x128, .f32⟩
  | .hbm, ⟨30, _⟩ => ⟨S64x1x2048, .f32⟩
  | .hbm, ⟨31, _⟩ => ⟨S64x2048, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S64x1024, .f32⟩
  | .local _ .vmem, ⟨0, _⟩ => ⟨S4x256x2048, .f32⟩
  | .local _ .vmem, ⟨1, _⟩ => ⟨S4x256x2048, .f32⟩
  | .local _ .vmem, ⟨2, _⟩ => ⟨S128x2048, .f32⟩
  | .local _ .vmem, ⟨3, _⟩ => ⟨S1x128, .f32⟩
  | .local _ .vmem, ⟨4, _⟩ => ⟨S4x1x2048, .f32⟩
  | .local _ .vmem, ⟨5, _⟩ => ⟨S4x1x2048, .f32⟩
  | .local _ .vmem, ⟨6, _⟩ => ⟨S64x2048, .f32⟩
  | .local _ .vmem, ⟨7, _⟩ => ⟨S1024x2048, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S64x1024, .f32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  reducesTo_S64x2048_S64_d1 : S64x2048.ReducesTo [1] S64
  h_S_ : 0 < S_.numel
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  concatenates_S64x2048_S64x2048_S128x2048_d0 : Shape.Concatenates [S64x2048, S64x2048] S128x2048 0
  concatenates_S64_S64_S128_d0 : Shape.Concatenates [S64, S64] S128 0
  shapeCasts_S128_S1x128 : S128.ShapeCasts S1x128
  inb_S4x256x2048_S4x256x2048_0_0_0 : ∀ a, (![0, 0, 0] : Fin 3 → Nat) a + S4x256x2048.size a ≤ S4x256x2048.size a
  h_S4x256x2048 : 0 < S4x256x2048.numel
  shapeCasts_S4x256x2048_S1024x2048 : S4x256x2048.ShapeCasts S1024x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S1024x128_S4x256x128 : S1024x128.ShapeCasts S4x256x128
  slices_S4x256x128_o0_0_0_S4x256x64 : S4x256x128.Slices ![0, 0, 0] S4x256x64
  slices_S4x256x128_o0_0_64_S4x256x64 : S4x256x128.Slices ![0, 0, 64] S4x256x64
  reduces_S4x256x64_S4x256 : S4x256x64.Reduces [2] S4x256
  shapeCasts_S4x256_S4x256x1 : S4x256.ShapeCasts S4x256x1
  broadcasts_S4x256x1_S4x256x64 : S4x256x1.Broadcasts S4x256x64
  reduces_S4x256x64_S4x64 : S4x256x64.Reduces [1] S4x64
  shapeCasts_S4x64_S4x1x64 : S4x64.ShapeCasts S4x1x64
  broadcasts_S4x1x64_S4x256x64 : S4x1x64.Broadcasts S4x256x64
  broadcasts_S4x256x1_S4x256x2048 : S4x256x1.Broadcasts S4x256x2048
  reduces_S4x256x2048_S4x2048 : S4x256x2048.Reduces [1] S4x2048
  shapeCasts_S4x2048_S4x1x2048 : S4x2048.ShapeCasts S4x1x2048
  inb_S4x1x2048_S4x1x2048_0_0_0 : ∀ a, (![0, 0, 0] : Fin 3 → Nat) a + S4x1x2048.size a ≤ S4x1x2048.size a
  h_S4x1x2048 : 0 < S4x1x2048.numel
  shapeCasts_S64x1x2048_S64x2048 : S64x1x2048.ShapeCasts S64x2048
  shapeCasts_S1024_S1x1024 : S1024.ShapeCasts S1x1024
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  reduces_S64x1024_S1024 : S64x1024.Reduces [0] S1024
  inb_S64x1024_S64x1024_0_0 : ∀ a, (![0, 0] : Fin 2 → Nat) a + S64x1024.size a ≤ S64x1024.size a
  h_S64x1024 : 0 < S64x1024.numel
  dot_S1024x2048_S128x2048_S1024x128_1_1_0_0_n_n_wf : DotDims.WF S1024x2048 S128x2048 S1024x128 [1] [1] [0] [0] [] []
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S64x256x2048.size a
  hwx0_0 : ∀ i : grid0.Coords, EltTy.bits .f32 = 32 ∨ (Rect.block (s := S64x256x2048) S4x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .f32 = 32 ∨ (Rect.block (s := S128x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x2048.size a ≤ S64x1x2048.size a
  hwx0_3 : ∀ i : grid0.Coords, EltTy.bits .f32 = 32 ∨ (Rect.block (s := S64x1x2048) S4x1x2048.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S64x2048.size a
  hwx1_0 : ∀ i : grid1.Coords, EltTy.bits .f32 = 32 ∨ (Rect.block (s := S64x2048) S64x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .f32 = 32 ∨ (Rect.block (s := S1024x2048) S1024x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1024.size a ≤ S64x1024.size a
  hwx1_5 : ∀ i : grid1.Coords, EltTy.bits .f32 = 32 ∨ (Rect.block (s := S64x1024) S64x1024.size (cc1_transform_5 i) (hinb1_5 i)).WholeWords (EltTy.packing .f32)

variable [Facts₀]

def dot_S1024x2048_S128x2048_S1024x128_1_1_0_0_n_n : DotDims S1024x2048 S128x2048 S1024x128 where
  lhsContracting := [1]
  rhsContracting := [1]
  lhsNonContracting := [0]
  rhsNonContracting := [0]
  lhsBatch := []
  rhsBatch := []
  wf := dot_S1024x2048_S128x2048_S1024x128_1_1_0_0_n_n_wf
def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S64x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S64x1024.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x256x2048 : Shape := ⟨3, ![64, 256, 2048]⟩
abbrev S64x2048 : Shape := ⟨2, ![64, 2048]⟩
abbrev S64 : Shape := ⟨1, ![64]⟩
abbrev S1024x2048 : Shape := ⟨2, ![1024, 2048]⟩
abbrev S1024 : Shape := ⟨1, ![1024]⟩
abbrev S_ : Shape := ⟨0, ![]⟩
abbrev S64x1 : Shape := ⟨2, ![64, 1]⟩
abbrev S64x256x64 : Shape := ⟨3, ![64, 256, 64]⟩
abbrev S1x1x64 : Shape := ⟨3, ![1, 1, 64]⟩
abbrev S64x256x256 : Shape := ⟨3, ![64, 256, 256]⟩
abbrev S256x256 : Shape := ⟨2, ![256, 256]⟩
abbrev S64x256 : Shape := ⟨2, ![64, 256]⟩
abbrev S64x1x256 : Shape := ⟨3, ![64, 1, 256]⟩
abbrev S64x256x1 : Shape := ⟨3, ![64, 256, 1]⟩
abbrev S1x256x256 : Shape := ⟨3, ![1, 256, 256]⟩
abbrev S2048x1024 : Shape := ⟨2, ![2048, 1024]⟩
abbrev S64x1024 : Shape := ⟨2, ![64, 1024]⟩
abbrev S1x1024 : Shape := ⟨2, ![1, 1024]⟩

abbrev nBuf : Space → Nat
  | .hbm => 115
  | .vmem => 0
  | .smem => 0
  | _ => 0

abbrev bufTy : (tb : Table) → Fin (tcTables nBuf tb) → BufTy
  | .hbm, ⟨0, _⟩ => ⟨S64x256x2048, .f32⟩
  | .hbm, ⟨1, _⟩ => ⟨S64x2048, .f32⟩
  | .hbm, ⟨2, _⟩ => ⟨S64, .f32⟩
  | .hbm, ⟨3, _⟩ => ⟨S64, .f32⟩
  | .hbm, ⟨4, _⟩ => ⟨S64x2048, .f32⟩
  | .hbm, ⟨5, _⟩ => ⟨S64, .f32⟩
  | .hbm, ⟨6, _⟩ => ⟨S64, .f32⟩
  | .hbm, ⟨7, _⟩ => ⟨S1024x2048, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S64x2048, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x1, .f32⟩
  | .hbm, ⟨17, _⟩ => ⟨S64x2048, .f32⟩
  | .hbm, ⟨18, _⟩ => ⟨S64x2048, .f32⟩
  | .hbm, ⟨19, _⟩ => ⟨S64x2048, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64x1, .f32⟩
  | .hbm, ⟨25, _⟩ => ⟨S64x2048, .f32⟩
  | .hbm, ⟨26, _⟩ => ⟨S64x2048, .f32⟩
  | .hbm, ⟨27, _⟩ => ⟨S64x256x64, .f32⟩
  | .hbm, ⟨28, _⟩ => ⟨S1x1x64, .f32⟩
  | .hbm, ⟨29, _⟩ => ⟨S64x256x64, .f32⟩
  | .hbm, ⟨30, _⟩ => ⟨S64x256x64, .f32⟩
  | .hbm, ⟨31, _⟩ => ⟨S_, .f32⟩
  | .hbm, ⟨32, _⟩ => ⟨S64x256x64, .f32⟩
  | .hbm, ⟨33, _⟩ => ⟨S64x256x64, .f32⟩
  | .hbm, ⟨34, _⟩ => ⟨S64x256x64, .f32⟩
  | .hbm, ⟨35, _⟩ => ⟨S1x1x64, .f32⟩
  | .hbm, ⟨36, _⟩ => ⟨S64x256x64, .f32⟩
  | .hbm, ⟨37, _⟩ => ⟨S64x256x64, .f32⟩
  | .hbm, ⟨38, _⟩ => ⟨S_, .f32⟩
  | .hbm, ⟨39, _⟩ => ⟨S64x256x64, .f32⟩
  | .hbm, ⟨40, _⟩ => ⟨S64x256x64, .f32⟩
  | .hbm, ⟨41, _⟩ => ⟨S64x256x256, .f32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S64x256x256, .i1⟩
  | .hbm, ⟨46, _⟩ => ⟨S_, .f32⟩
  | .hbm, ⟨47, _⟩ => ⟨S64x256x256, .f32⟩
  | .hbm, ⟨48, _⟩ => ⟨S64x256x256, .f32⟩
  | .hbm, ⟨49, _⟩ => ⟨S_, .f32⟩
  | .hbm, ⟨50, _⟩ => ⟨S64x256, .f32⟩
  | .hbm, ⟨51, _⟩ => ⟨S_, .f32⟩
  | .hbm, ⟨52, _⟩ => ⟨S64x256, .f32⟩
  | .hbm, ⟨53, _⟩ => ⟨S64x256, .f32⟩
  | .hbm, ⟨54, _⟩ => ⟨S64x256, .f32⟩
  | .hbm, ⟨55, _⟩ => ⟨S64x1x256, .f32⟩
  | .hbm, ⟨56, _⟩ => ⟨S64x256x256, .f32⟩
  | .hbm, ⟨57, _⟩ => ⟨S64x256x256, .f32⟩
  | .hbm, ⟨58, _⟩ => ⟨S64x256x1, .f32⟩
  | .hbm, ⟨59, _⟩ => ⟨S64x256x256, .f32⟩
  | .hbm, ⟨60, _⟩ => ⟨S64x256x256, .f32⟩
  | .hbm, ⟨61, _⟩ => ⟨S256x256, .i32⟩
  | .hbm, ⟨62, _⟩ => ⟨S256x256, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S256x256, .i1⟩
  | .hbm, ⟨67, _⟩ => ⟨S256x256, .f32⟩
  | .hbm, ⟨68, _⟩ => ⟨S_, .f32⟩
  | .hbm, ⟨69, _⟩ => ⟨S256x256, .f32⟩
  | .hbm, ⟨70, _⟩ => ⟨S256x256, .f32⟩
  | .hbm, ⟨71, _⟩ => ⟨S1x256x256, .f32⟩
  | .hbm, ⟨72, _⟩ => ⟨S64x256x256, .f32⟩
  | .hbm, ⟨73, _⟩ => ⟨S64x256x256, .f32⟩
  | .hbm, ⟨74, _⟩ => ⟨S64x256x2048, .f32⟩
  | .hbm, ⟨75, _⟩ => ⟨S_, .f32⟩
  | .hbm, ⟨76, _⟩ => ⟨S64x2048, .f32⟩
  | .hbm, ⟨77, _⟩ => ⟨S_, .f32⟩
  | .hbm, ⟨78, _⟩ => ⟨S64x2048, .f32⟩
  | .hbm, ⟨79, _⟩ => ⟨S64x2048, .f32⟩
  | .hbm, ⟨80, _⟩ => ⟨S2048x1024, .f32⟩
  | .hbm, ⟨81, _⟩ => ⟨S64x1024, .f32⟩
  | .hbm, ⟨82, _⟩ => ⟨S1x1024, .f32⟩
  | .hbm, ⟨83, _⟩ => ⟨S64x1024, .f32⟩
  | .hbm, ⟨84, _⟩ => ⟨S64x1024, .f32⟩
  | .hbm, ⟨85, _⟩ => ⟨S_, .f32⟩
  | .hbm, ⟨86, _⟩ => ⟨S1024, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1x1024, .f32⟩
  | .hbm, ⟨91, _⟩ => ⟨S64x1024, .f32⟩
  | .hbm, ⟨92, _⟩ => ⟨S64x1024, .f32⟩
  | .hbm, ⟨93, _⟩ => ⟨S64x1024, .f32⟩
  | .hbm, ⟨94, _⟩ => ⟨S_, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S1x1024, .f32⟩
  | .hbm, ⟨100, _⟩ => ⟨S64x1024, .f32⟩
  | .hbm, ⟨101, _⟩ => ⟨S64x1024, .f32⟩
  | .hbm, ⟨102, _⟩ => ⟨S1x1024, .f32⟩
  | .hbm, ⟨103, _⟩ => ⟨S64x1024, .f32⟩
  | .hbm, ⟨104, _⟩ => ⟨S64x1024, .f32⟩
  | .hbm, ⟨105, _⟩ => ⟨S_, .f32⟩
  | .hbm, ⟨106, _⟩ => ⟨S1024, .f32⟩
  | .hbm, ⟨107, _⟩ => ⟨S1024, .f32⟩
  | .hbm, ⟨108, _⟩ => ⟨S1024, .f32⟩
  | .hbm, ⟨109, _⟩ => ⟨S1x1024, .f32⟩
  | .hbm, ⟨110, _⟩ => ⟨S64x1024, .f32⟩
  | .hbm, ⟨111, _⟩ => ⟨S64x1024, .f32⟩
  | .hbm, ⟨112, _⟩ => ⟨S1x1024, .f32⟩
  | .hbm, ⟨113, _⟩ => ⟨S64x1024, .f32⟩
  | .hbm, ⟨114, _⟩ => ⟨S64x1024, .f32⟩
  | _, _ => ⟨S64x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call3_cst : Ref sig .tc := ⟨.hbm, 38, rfl⟩
abbrev main_call3_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_cst_0 : Ref sig .tc := ⟨.hbm, 49, rfl⟩
abbrev main_v27 : Ref sig .tc := ⟨.hbm, 50, rfl⟩
abbrev main_cst_1 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_2 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_5 : Ref sig .tc := ⟨.hbm, 85, rfl⟩
abbrev main_v57 : Ref sig .tc := ⟨.hbm, 86, rfl⟩
abbrev main_cst_6 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_7 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_9 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  reducesTo_S64x2048_S64_d1 : S64x2048.ReducesTo [1] S64
  h_S_ : 0 < S_.numel
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  bcast_S64_S1x1x64_2 : S64.BroadcastsInDim S1x1x64 (![2] : Fin 1 → Fin S1x1x64.rank)
  bcast_S1x1x64_S64x256x64_0_1_2 : S1x1x64.BroadcastsInDim S64x256x64 (![0, 1, 2] : Fin 3 → Fin S64x256x64.rank)
  bcast_S_S64x256x64 : S_.BroadcastsInDim S64x256x64 (![] : Fin 0 → Fin S64x256x64.rank)
  bcast_S256x256_S64x256x256_1_2 : S256x256.BroadcastsInDim S64x256x256 (![1, 2] : Fin 2 → Fin S64x256x256.rank)
  bcast_S_S64x256x256 : S_.BroadcastsInDim S64x256x256 (![] : Fin 0 → Fin S64x256x256.rank)
  reducesTo_S64x256x256_S64x256_d1 : S64x256x256.ReducesTo [1] S64x256
  bcast_S_S64x256 : S_.BroadcastsInDim S64x256 (![] : Fin 0 → Fin S64x256.rank)
  bcast_S64x256_S64x1x256_0_2 : S64x256.BroadcastsInDim S64x1x256 (![0, 2] : Fin 2 → Fin S64x1x256.rank)
  bcast_S64x1x256_S64x256x256_0_1_2 : S64x1x256.BroadcastsInDim S64x256x256 (![0, 1, 2] : Fin 3 → Fin S64x256x256.rank)
  bcast_S64x256_S64x256x1_0_1 : S64x256.BroadcastsInDim S64x256x1 (![0, 1] : Fin 2 → Fin S64x256x1.rank)
  bcast_S64x256x1_S64x256x256_0_1_2 : S64x256x1.BroadcastsInDim S64x256x256 (![0, 1, 2] : Fin 3 → Fin S64x256x256.rank)
  bcast_S_S256x256 : S_.BroadcastsInDim S256x256 (![] : Fin 0 → Fin S256x256.rank)
  bcast_S256x256_S1x256x256_1_2 : S256x256.BroadcastsInDim S1x256x256 (![1, 2] : Fin 2 → Fin S1x256x256.rank)
  bcast_S1x256x256_S64x256x256_0_1_2 : S1x256x256.BroadcastsInDim S64x256x256 (![0, 1, 2] : Fin 3 → Fin S64x256x256.rank)
  reducesTo_S64x256x2048_S64x2048_d1 : S64x256x2048.ReducesTo [1] S64x2048
  bcast_S_S64x2048 : S_.BroadcastsInDim S64x2048 (![] : Fin 0 → Fin S64x2048.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  reducesTo_S64x1024_S1024_d0 : S64x1024.ReducesTo [0] S1024
  bcast_S_S1024 : S_.BroadcastsInDim S1024 (![] : Fin 0 → Fin S1024.rank)
  dot_S64x256x2048_S64x2048_S64x256x64_2_1_01_0_n_n_wf : DotDims.WF S64x256x2048 S64x2048 S64x256x64 [2] [1] [0, 1] [0] [] []
  dot_S64x256x64_S64x256x64_S64x256x256_2_2_1_1_0_0_wf : DotDims.WF S64x256x64 S64x256x64 S64x256x256 [2] [2] [1] [1] [0] [0]
  dot_S64x256x256_S64x256x2048_S64x256x2048_2_1_1_2_0_0_wf : DotDims.WF S64x256x256 S64x256x2048 S64x256x2048 [2] [1] [1] [2] [0] [0]
  dot_S64x2048_S2048x1024_S64x1024_1_0_0_1_n_n_wf : DotDims.WF S64x2048 S2048x1024 S64x1024 [1] [0] [0] [1] [] []

variable [Facts₀]

def dot_S64x256x2048_S64x2048_S64x256x64_2_1_01_0_n_n : DotDims S64x256x2048 S64x2048 S64x256x64 where
  lhsContracting := [2]
  rhsContracting := [1]
  lhsNonContracting := [0, 1]
  rhsNonContracting := [0]
  lhsBatch := []
  rhsBatch := []
  wf := dot_S64x256x2048_S64x2048_S64x256x64_2_1_01_0_n_n_wf
def dot_S64x256x64_S64x256x64_S64x256x256_2_2_1_1_0_0 : DotDims S64x256x64 S64x256x64 S64x256x256 where
  lhsContracting := [2]
  rhsContracting := [2]
  lhsNonContracting := [1]
  rhsNonContracting := [1]
  lhsBatch := [0]
  rhsBatch := [0]
  wf := dot_S64x256x64_S64x256x64_S64x256x256_2_2_1_1_0_0_wf
def dot_S64x256x256_S64x256x2048_S64x256x2048_2_1_1_2_0_0 : DotDims S64x256x256 S64x256x2048 S64x256x2048 where
  lhsContracting := [2]
  rhsContracting := [1]
  lhsNonContracting := [1]
  rhsNonContracting := [2]
  lhsBatch := [0]
  rhsBatch := [0]
  wf := dot_S64x256x256_S64x256x2048_S64x256x2048_2_1_1_2_0_0_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf

class Facts : Prop extends Facts₀ where

variable [Facts]
-- ==== Proof.KernelRun.lean ====
/-
  The idealized kernel's run with its result array named.

  @main is seven segments (four stretches of host operations, the first launch, one stretch of reshapes,
  the second launch). The contents of every unscoped buffer at each boundary are a fold from the launch
  memory; at the last boundary the second launch's output array holds what its write-backs left, the
  arrays of its one output window folded over the grid. Reading the final state against that last
  boundary gives the result array as that fold, and each argument array as launched.
-/
import proofs.«102167_j37211596653081_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the fold of the
    second launch's write-backs over its entry contents, and every argument array ends as launched. -/
theorem run_value : θ_run defs (onTc (τ := τ) (main (F := F))) ⟨m, fun _ => 0, ρ⟩ (fun r => ∀ c : Dev nD,
      r.2.mem ((c.tc : Thread nD τ).loc main_v18) = (dat1 (V6 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v18 (by decide))).trans (W7_arr m ρ c 5),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Hand

end
-- ==== Proof.Blocks0.lean ====
/-
  The first launch (sixteen grid points, four batches each): its output array after the launch.

  Point t reads batches 4t … 4t+3 of the 64 x 256 x 2048 array, the whole 128 x 2048 weight matrix and the
  whole 1 x 128 bias row, and writes back rows 4t … 4t+3 of the 64 x 1 x 2048 output. So the output
  array is ONE function of the three arrays: at batch B it is the body's arithmetic on the group of four
  batches holding B (group B / 4), read at B's place in the group (B % 4). The sixteen blocks tile the
  64 batches.
-/
import proofs.«102167_j37211596653081_2_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem zero2' : (![0, 0] : Fin 2 → Nat) = fun _ => 0 := funext fun a => by fin_cases a <;> rfl
theorem zero3 : (![0, 0, 0] : Fin 3 → Nat) = fun _ => 0 := funext fun a => by fin_cases a <;> rfl

/-- The block indices of the first launch's four windows: the batched windows move with the point, the
    weight matrix and the bias row stay. -/
theorem index0_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Group q of four batches of a 64 x 256 x 2048 array. -/
def rows4 (A0 : S64x256x2048.Idx → Elt F .f32) (q : Fin 16) : S4x256x2048.Idx → Elt F .f32 :=
  fun x => A0 (ix3 (⟨4 * q.val + (x 0).val, by have h : (x 0).val < 4 := (x 0).isLt; have := q.isLt; omega⟩ : Fin 64)
    (⟨(x 1).val, (x 1).isLt⟩ : Fin 256) (⟨(x 2).val, (x 2).isLt⟩ : Fin 2048))

/-- The output array as one function of the three arrays the launch reads. -/
def feats0 (A0 : S64x256x2048.Idx → Elt F .f32) (A1 : S128x2048.Idx → Elt F .f32) (A2 : S1x128.Idx → Elt F .f32) :
    S64x1x2048.Idx → Elt F .f32 :=
  fun i => k0_pay1 (rows4 A0 ⟨(i 0).val / 4, by have h : (i 0).val < 64 := (i 0).isLt; omega⟩) A1 A2
    (ix3 (⟨(i 0).val % 4, Nat.mod_lt _ (by decide)⟩ : Fin 4) (⟨(i 1).val, (i 1).isLt⟩ : Fin 1) (⟨(i 2).val, (i 2).isLt⟩ : Fin 2048))

/-- Point t's block of the batched input is group t. -/
theorem iblk0_0 (c : Dev nD) (t : Fin cfg0.N) :
    (iblk0 V c 0 t : S4x256x2048.Idx → Elt F .f32) = rows4 (V c main_arg0) ⟨t.val, by have := t.isLt; have hN : cfg0.N = 16 := N_0; omega⟩ := by
  obtain ⟨e0, e1, e2, -⟩ := index0_facts t
  funext x
  unfold iblk0 rows4
  rw [View.read_apply]
  show V c main_arg0 _ = V c main_arg0 _
  congr 1
  funext a
  apply Fin.ext
  match a with
  | ⟨0, _⟩ => show win0_0.index t (0 : Fin 3) * 4 + 1 * (x 0).val = 4 * t.val + (x 0).val; rw [e0]; omega
  | ⟨1, _⟩ => show win0_0.index t (1 : Fin 3) * 256 + 1 * (x 1).val = (x 1).val; rw [e1]; omega
  | ⟨2, _⟩ => show win0_0.index t (2 : Fin 3) * 2048 + 1 * (x 2).val = (x 2).val; rw [e2]; omega

/-- The weight matrix's block is the whole matrix. -/
theorem iblk0_1 (c : Dev nD) (t : Fin cfg0.N) :
    (iblk0 V c 1 t : S128x2048.Idx → Elt F .f32) = V c main_v10 := by
  obtain ⟨-, -, -, e0, e1, -⟩ := index0_facts t
  funext x
  unfold iblk0
  rw [View.read_apply]
  show V c main_v10 _ = V c main_v10 x
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 2048 + 1 * (x 1).val = (x 1).val; rw [e1]; omega

/-- The bias row's block is the whole row. -/
theorem iblk0_2 (c : Dev nD) (t : Fin cfg0.N) :
    (iblk0 V c 2 t : S1x128.Idx → Elt F .f32) = V c main_v12 := by
  obtain ⟨-, -, -, -, -, e0, e1, -⟩ := index0_facts t
  funext x
  unfold iblk0
  rw [View.read_apply]
  show V c main_v12 _ = V c main_v12 x
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- What point t writes back is its block of `feats0`. -/
theorem flushed0_eq (c : Dev nD) (t : Fin cfg0.N) :
    (dat0 V c).flushed 3 t = ((cfg0.win 3).blk t).view.read (Elt F) (feats0 (V c main_arg0) (V c main_v10) (V c main_v12)) := by
  show (cfg0.win 3).cut (grid0.coords t) ((dat0 V c).after 3 t) = _
  rw [after0_3]
  unfold out0_3
  rw [View.canon_unit_zero zero3]
  simp only [View.ld_unit_zero (S := S4x256x2048) zero3, View.ld_unit_zero (S := S128x2048) zero2',
    View.ld_unit_zero (S := S1x128) zero2']
  rw [iblk0_0, iblk0_1, iblk0_2]
  obtain ⟨-, -, -, -, -, -, -, e0, e1, e2⟩ := index0_facts t
  have hN : cfg0.N = 16 := N_0
  have ht : t.val < 16 := by have := t.isLt; omega
  funext y
  have hy0 : (y 0).val < 4 := (y 0).isLt
  have hy1 : (y 1).val < 1 := (y 1).isLt
  have hy2 : (y 2).val < 2048 := (y 2).isLt
  show k0_pay1 (rows4 (V c main_arg0) ⟨t.val, _⟩) (V c main_v10) (V c main_v12) y
    = feats0 (V c main_arg0) (V c main_v10) (V c main_v12) (((cfg0.win 3).blk t).view.emb y)
  have he0 : ((((cfg0.win 3).blk t).view.emb y) 0).val = 4 * t.val + (y 0).val := by
    show win0_3.index t (0 : Fin 3) * 4 + 1 * (y 0).val = _; rw [e0]; omega
  have he1 : ((((cfg0.win 3).blk t).view.emb y) 1).val = (y 1).val := by
    show win0_3.index t (1 : Fin 3) * 1 + 1 * (y 1).val = _; rw [e1]; omega
  have he2 : ((((cfg0.win 3).blk t).view.emb y) 2).val = (y 2).val := by
    show win0_3.index t (2 : Fin 3) * 2048 + 1 * (y 2).val = _; rw [e2]; omega
  unfold feats0
  have hq : (⟨((((cfg0.win 3).blk t).view.emb y) 0).val / 4, by have h : ((((cfg0.win 3).blk t).view.emb y) 0).val < 64 := ((((cfg0.win 3).blk t).view.emb y) 0).isLt; omega⟩ : Fin 16) = ⟨t.val, ht⟩ :=
    Fin.ext (by show ((((cfg0.win 3).blk t).view.emb y) 0).val / 4 = t.val; rw [he0]; omega)
  have hi : (ix3 (⟨((((cfg0.win 3).blk t).view.emb y) 0).val % 4, Nat.mod_lt _ (by decide)⟩ : Fin 4)
      (⟨((((cfg0.win 3).blk t).view.emb y) 1).val, ((((cfg0.win 3).blk t).view.emb y) 1).isLt⟩ : Fin 1)
      (⟨((((cfg0.win 3).blk t).view.emb y) 2).val, ((((cfg0.win 3).blk t).view.emb y) 2).isLt⟩ : Fin 2048) : S4x1x2048.Idx) = y := by
    funext a
    apply Fin.ext
    match a with
    | ⟨0, _⟩ => show ((((cfg0.win 3).blk t).view.emb y) 0).val % 4 = (y 0).val; rw [he0]; omega
    | ⟨1, _⟩ => show ((((cfg0.win 3).blk t).view.emb y) 1).val = (y 1).val; exact he1
    | ⟨2, _⟩ => show ((((cfg0.win 3).blk t).view.emb y) 2).val = (y 2).val; exact he2
  rw [hq, hi]

/-- An index of the output array is in point `t`'s block iff each coordinate is in the block's range. -/
theorem mem_blk0_3 (t : Fin cfg0.N) (i : S64x1x2048.Idx) :
    i ∈ ((cfg0.win 3).blk t).view.set ↔ ∀ a : Fin 3, win0_3.index t a * S4x1x2048.size a ≤ (i a).val ∧ (i a).val < win0_3.index t a * S4x1x2048.size a + S4x1x2048.size a := by
  show i ∈ ((View.whole main_v13).slice (win0_3.rect t)).set ↔ _
  rw [View.set_slice_whole, Rect.mem_set_unit]
  exact Iff.rfl

/-- The output array after the first launch. -/
theorem final0 (c : Dev nD) : (dat0 V c).arrAt 3 cfg0.N = feats0 (V c main_arg0) (V c main_v10) (V c main_v12) :=
  (dat0 V c).arrAt_eq_of_cover 3 _ (fun t _ => flushed0_eq V c t) fun i => by
    have hN : cfg0.N = 16 := N_0
    have h0 : (i 0).val < 64 := (i 0).isLt
    have h1 : (i 1).val < 1 := (i 1).isLt
    have h2 : (i 2).val < 2048 := (i 2).isLt
    refine ⟨⟨(i 0).val / 4, by omega⟩, flush0_3 _, ?_⟩
    rw [mem_blk0_3]
    obtain ⟨-, -, -, -, -, -, -, e0, e1, e2⟩ := index0_facts (⟨(i 0).val / 4, by omega⟩ : Fin cfg0.N)
    intro a
    match a with
    | ⟨0, _⟩ => show win0_3.index _ (0 : Fin 3) * 4 ≤ (i 0).val ∧ (i 0).val < win0_3.index _ (0 : Fin 3) * 4 + 4; rw [e0]; show (i 0).val / 4 * 4 ≤ (i 0).val ∧ (i 0).val < (i 0).val / 4 * 4 + 4; omega
    | ⟨1, _⟩ => show win0_3.index _ (1 : Fin 3) * 1 ≤ (i 1).val ∧ (i 1).val < win0_3.index _ (1 : Fin 3) * 1 + 1; rw [e1]; omega
    | ⟨2, _⟩ => show win0_3.index _ (2 : Fin 3) * 2048 ≤ (i 2).val ∧ (i 2).val < win0_3.index _ (2 : Fin 3) * 2048 + 2048; rw [e2]; omega

end Cert.KernelIdeal.Hand

end
-- ==== Proof.Blocks1.lean ====
/-
  The second launch (one grid point; every window is its whole array): its output array after the
  launch is the body's arithmetic applied to the five input arrays as the launch finds them.

  With one point and block index zero on every axis, a window's block read through its view is the
  array itself, and what the point writes back covers the output array.
-/
import proofs.«102167_j37211596653081_2_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl

/-- The block indices of the second launch's six windows at its one point are all zero. -/
theorem index1_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The first window's block is the 64 x 2048 array. -/
theorem iblk1_0 (c : Dev nD) (t : Fin cfg1.N) :
    (iblk1 V c 0 t : S64x2048.Idx → Elt F .f32) = V c main_v14 := by
  obtain ⟨e0, e1, -⟩ := index1_zero t
  funext x
  unfold iblk1
  rw [View.read_apply]
  show V c main_v14 _ = V c main_v14 x
  congr 1
  funext a
  apply Fin.ext
  match a with
  | ⟨0, _⟩ => show win1_0.index t (0 : Fin 2) * 64 + 1 * (x 0).val = (x 0).val; rw [e0]; omega
  | ⟨1, _⟩ => show win1_0.index t (1 : Fin 2) * 2048 + 1 * (x 1).val = (x 1).val; rw [e1]; omega

/-- The second window's block is the 1024 x 2048 array. -/
theorem iblk1_1 (c : Dev nD) (t : Fin cfg1.N) :
    (iblk1 V c 1 t : S1024x2048.Idx → Elt F .f32) = V c main_arg7 := by
  obtain ⟨-, -, e0, e1, -⟩ := index1_zero t
  funext x
  unfold iblk1
  rw [View.read_apply]
  show V c main_arg7 _ = V c main_arg7 x
  congr 1
  funext a
  apply Fin.ext
  match a with
  | ⟨0, _⟩ => show win1_1.index t (0 : Fin 2) * 1024 + 1 * (x 0).val = (x 0).val; rw [e0]; omega
  | ⟨1, _⟩ => show win1_1.index t (1 : Fin 2) * 2048 + 1 * (x 1).val = (x 1).val; rw [e1]; omega

/-- The third window's block is the 1 x 1024 bias row. -/
theorem iblk1_2 (c : Dev nD) (t : Fin cfg1.N) :
    (iblk1 V c 2 t : S1x1024.Idx → Elt F .f32) = V c main_v15 := by
  obtain ⟨-, -, -, -, e0, e1, -⟩ := index1_zero t
  funext x
  unfold iblk1
  rw [View.read_apply]
  show V c main_v15 _ = V c main_v15 x
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 1024 + 1 * (x 1).val = (x 1).val; rw [e1]; omega

/-- The fourth window's block is the 1 x 1024 scale row. -/
theorem iblk1_3 (c : Dev nD) (t : Fin cfg1.N) :
    (iblk1 V c 3 t : S1x1024.Idx → Elt F .f32) = V c main_v16 := by
  obtain ⟨-, -, -, -, -, -, e0, e1, -⟩ := index1_zero t
  funext x
  unfold iblk1
  rw [View.read_apply]
  show V c main_v16 _ = V c main_v16 x
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 1024 + 1 * (x 1).val = (x 1).val; rw [e1]; omega

/-- The fifth window's block is the 1 x 1024 shift row. -/
theorem iblk1_4 (c : Dev nD) (t : Fin cfg1.N) :
    (iblk1 V c 4 t : S1x1024.Idx → Elt F .f32) = V c main_v17 := by
  obtain ⟨-, -, -, -, -, -, -, -, e0, e1, -⟩ := index1_zero t
  funext x
  unfold iblk1
  rw [View.read_apply]
  show V c main_v17 _ = V c main_v17 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 1024 + 1 * (x 1).val = (x 1).val; rw [e1]; omega

/-- The body's arithmetic on the five arrays as the launch finds them. -/
abbrev tailOf (c : Dev nD) : S64x1024.Idx → Elt F .f32 :=
  k1_pay1 (V c main_v14) (V c main_arg7) (V c main_v15) (V c main_v16) (V c main_v17)

/-- The output block's coordinates in the array are its own (block index zero on both axes). -/
theorem emb1_5 (t : Fin cfg1.N) (y : S64x1024.Idx) : ((cfg1.win 5).blk t).view.emb y = y := by
  obtain ⟨-, -, -, -, -, -, -, -, -, -, e0, e1⟩ := index1_zero t
  funext a
  apply Fin.ext
  match a with
  | ⟨0, _⟩ => show win1_5.index t (0 : Fin 2) * 64 + 1 * (y 0).val = (y 0).val; rw [e0]; omega
  | ⟨1, _⟩ => show win1_5.index t (1 : Fin 2) * 1024 + 1 * (y 1).val = (y 1).val; rw [e1]; omega

/-- What the one point writes back is its block of `tailOf`. -/
theorem flushed1_eq (c : Dev nD) (t : Fin cfg1.N) :
    (dat1 V c).flushed 5 t = ((cfg1.win 5).blk t).view.read (Elt F) (tailOf V c) := by
  show (cfg1.win 5).cut (grid1.coords t) ((dat1 V c).after 5 t) = _
  rw [after1_5]
  unfold out1_5
  rw [View.canon_unit_zero zero2]
  simp only [View.ld_unit_zero (S := S64x2048) zero2, View.ld_unit_zero (S := S1024x2048) zero2,
    View.ld_unit_zero (S := S1x1024) zero2]
  rw [iblk1_0, iblk1_1, iblk1_2, iblk1_3, iblk1_4]
  funext y
  show tailOf V c y = tailOf V c (((cfg1.win 5).blk t).view.emb y)
  rw [emb1_5]

/-- An index of the output array is in point `t`'s block iff each coordinate is in the block's range. -/
theorem mem_blk1_5 (t : Fin cfg1.N) (i : S64x1024.Idx) :
    i ∈ ((cfg1.win 5).blk t).view.set ↔ ∀ a : Fin 2, win1_5.index t a * S64x1024.size a ≤ (i a).val ∧ (i a).val < win1_5.index t a * S64x1024.size a + S64x1024.size a := by
  show i ∈ ((View.whole main_v18).slice (win1_5.rect t)).set ↔ _
  rw [View.set_slice_whole, Rect.mem_set_unit]
  exact Iff.rfl

/-- The output array after the second launch. -/
theorem final1 (c : Dev nD) : (dat1 V c).arrAt 5 cfg1.N = tailOf V c :=
  (dat1 V c).arrAt_eq_of_cover 5 (tailOf V c) (fun t _ => flushed1_eq V c t) fun i => by
    refine ⟨t1_0, flush1_5 t1_0, ?_⟩
    rw [mem_blk1_5]
    obtain ⟨-, -, -, -, -, -, -, -, -, -, e0, e1⟩ := index1_zero t1_0
    intro a
    have h0 : (i 0).val < 64 := (i 0).isLt
    have h1 : (i 1).val < 1024 := (i 1).isLt
    match a with
    | ⟨0, _⟩ => show win1_5.index t1_0 (0 : Fin 2) * 64 ≤ (i 0).val ∧ (i 0).val < win1_5.index t1_0 (0 : Fin 2) * 64 + 64; rw [e0]; omega
    | ⟨1, _⟩ => show win1_5.index t1_0 (1 : Fin 2) * 1024 ≤ (i 1).val ∧ (i 1).val < win1_5.index t1_0 (1 : Fin 2) * 1024 + 1024; rw [e1]; omega

end Cert.KernelIdeal.Hand

end
-- ==== Proof.HostVals.lean ====
/-
  What the two launches find in their operand arrays, and how the host's re-layouts read at an index.

  Before the first launch the host normalises the rows of the two 64 x 2048 weight matrices (each row times
  its gain over its Euclidean norm), stacks them into one 128 x 2048 matrix, and stacks the two 64-long
  biases into one 1 x 128 row. Between the launches it drops the unit axis of the 64 x 1 x 2048 result and
  views each of the three 1024-long vectors as a 1 x 1024 row.
-/
import proofs.«102167_j37211596653081_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (ρ : Dev nD → PrngReg)

/-- The host's weight normalisation: each row of `a1` times its gain over the square root of the row's sum of squares. -/
def wnormK (a1 : FVec F S64x2048 .f32) (a2 : FVec F S64 .f32) : FVec F S64x2048 .f32 :=
  mulf a1 (broadcastInDim S64x2048 ![0, 1] bcast_S64x1_S64x2048_0_1 (broadcastInDim S64x1 ![0] bcast_S64_S64x1_0
    (Host.divf a2 (Host.sqrt (Host.reduceAdd (mulf a1 a1) (constant S_ .f32 0x00000000#32) reducesTo_S64x2048_S64_d1 h_S_)))))

/-! ## The first launch's operands -/

/-- The batched input is the first argument. -/
theorem V4_arg0 (c : Dev nD) : (V4 m ρ c main_arg0 : S64x256x2048.Idx → Elt F .f32) = m ((c : Thread nD τ).loc main_arg0) := by
  dsimp only [V4, W4, W3, W2, W1, W0, hostOps0_3, hostOps0_2, hostOps0_1, hostOps0]
  after_results

/-- The 128 x 2048 weight matrix: the two normalised matrices stacked. -/
theorem V4_v10 (c : Dev nD) : (V4 m ρ c main_v10 : S128x2048.Idx → Elt F .f32)
    = concatenate S128x2048 0 [⟨S64x2048, wnormK (m ((c : Thread nD τ).loc main_arg1)) (m ((c : Thread nD τ).loc main_arg2))⟩,
        ⟨S64x2048, wnormK (m ((c : Thread nD τ).loc main_arg4)) (m ((c : Thread nD τ).loc main_arg5))⟩] concatenates_S64x2048_S64x2048_S128x2048_d0 := by
  dsimp only [V4, W4, W3, W2, W1, W0, hostOps0_3, hostOps0_2, hostOps0_1, hostOps0]
  after_results
  rfl

/-- The 1 x 128 bias row: the two biases stacked, then viewed as a row. -/
theorem V4_v12 (c : Dev nD) : (V4 m ρ c main_v12 : S1x128.Idx → Elt F .f32)
    = shapeCast S1x128 (concatenate S128 0 [⟨S64, m ((c : Thread nD τ).loc main_arg3)⟩, ⟨S64, m ((c : Thread nD τ).loc main_arg6)⟩] concatenates_S64_S64_S128_d0) shapeCasts_S128_S1x128 := by
  dsimp only [V4, W4, W3, W2, W1, W0, hostOps0_3, hostOps0_2, hostOps0_1, hostOps0]
  after_results
  rfl

/-! ## The second launch's operands -/

/-- The 64 x 2048 operand: the first launch's output array with its unit axis dropped. -/
theorem V6_v14 (c : Dev nD) : (V6 m ρ c main_v14 : S64x2048.Idx → Elt F .f32)
    = shapeCast S64x2048 ((dat0 (V4 m ρ) c).arrAt 3 cfg0.N) shapeCasts_S64x1x2048_S64x2048 := by
  dsimp only [V6, W6, hostOps1]
  after_results
  rw [show W5 m ρ c (Proc.devRef .tc main_v13) = (dat0 (V4 m ρ) c).arrAt 3 cfg0.N from W5_arr m ρ c 3]
  rfl

/-- The 1024 x 2048 operand is the eighth argument. -/
theorem V6_arg7 (c : Dev nD) : (V6 m ρ c main_arg7 : S1024x2048.Idx → Elt F .f32) = m ((c : Thread nD τ).loc main_arg7) := by
  dsimp only [V6, W6, hostOps1]
  after_results
  rw [W5_of_ne m ρ c main_arg7 (by decide)]
  dsimp only [W4, W3, W2, W1, W0, hostOps0_3, hostOps0_2, hostOps0_1, hostOps0]
  after_results

/-- The linear layer's bias as a row. -/
theorem V6_v15 (c : Dev nD) : (V6 m ρ c main_v15 : S1x1024.Idx → Elt F .f32)
    = shapeCast S1x1024 (m ((c : Thread nD τ).loc main_arg8)) shapeCasts_S1024_S1x1024 := by
  dsimp only [V6, W6, hostOps1]
  after_results
  rw [W5_of_ne m ρ c main_arg8 (by decide)]
  dsimp only [W4, W3, W2, W1, W0, hostOps0_3, hostOps0_2, hostOps0_1, hostOps0]
  after_results
  rfl

/-- The normalisation's scale as a row. -/
theorem V6_v16 (c : Dev nD) : (V6 m ρ c main_v16 : S1x1024.Idx → Elt F .f32)
    = shapeCast S1x1024 (m ((c : Thread nD τ).loc main_arg9)) shapeCasts_S1024_S1x1024 := by
  dsimp only [V6, W6, hostOps1]
  after_results
  rw [W5_of_ne m ρ c main_arg9 (by decide)]
  dsimp only [W4, W3, W2, W1, W0, hostOps0_3, hostOps0_2, hostOps0_1, hostOps0]
  after_results
  rfl

/-- The normalisation's shift as a row. -/
theorem V6_v17 (c : Dev nD) : (V6 m ρ c main_v17 : S1x1024.Idx → Elt F .f32)
    = shapeCast S1x1024 (m ((c : Thread nD τ).loc main_arg10)) shapeCasts_S1024_S1x1024 := by
  dsimp only [V6, W6, hostOps1]
  after_results
  rw [W5_of_ne m ρ c main_arg10 (by decide)]
  dsimp only [W4, W3, W2, W1, W0, hostOps0_3, hostOps0_2, hostOps0_1, hostOps0]
  after_results
  rfl

/-! ## The re-layouts at an index -/

section Layout
variable {α : Type}

/-- A 1024-vector viewed as a 1 x 1024 row, at (0, e), is the vector at e. -/
theorem row_apply (x : S1024.Idx → α) (e : Fin 1024) :
    shapeCast S1x1024 x shapeCasts_S1024_S1x1024 (ix2 (0 : Fin 1) e) = x (ix1 e) :=
  shapeCast_apply x _ _ _ (by rw [Shape.rowMajor_val_one, Shape.rowMajor_val_two]; show e.val = 0 * 1024 + e.val; omega)

/-- A 64 x 1 x 2048 array with its unit axis dropped, at (b, j), is the array at (b, 0, j). -/
theorem drop_apply (X : S64x1x2048.Idx → α) (b : Fin 64) (j : Fin 2048) :
    shapeCast S64x2048 X shapeCasts_S64x1x2048_S64x2048 (ix2 b j) = X (ix3 b (0 : Fin 1) j) :=
  shapeCast_apply X _ _ _ (by rw [Shape.rowMajor_val_three, Shape.rowMajor_val_two]; show (b.val * 1 + 0) * 2048 + j.val = b.val * 2048 + j.val; omega)

/-- The stacked weight matrix at a row of its upper half. -/
theorem stackW_upper (w1 w2 : S64x2048.Idx → α) (k : Fin 64) (j : Fin 2048) :
    concatenate S128x2048 0 [⟨S64x2048, w1⟩, ⟨S64x2048, w2⟩] concatenates_S64x2048_S64x2048_S128x2048_d0
      (ix2 (⟨k.val, by omega⟩ : Fin 128) j) = w1 (ix2 k j) :=
  concatenate_pair_apply_left (t := S128x2048) (s₁ := S64x2048) (s₂ := S64x2048) (0 : Fin 2) w1 w2 concatenates_S64x2048_S64x2048_S128x2048_d0
    (ix2 (⟨k.val, by omega⟩ : Fin 128) j) rfl (ix2 k j) (fun b => by match b with | ⟨0, _⟩ => rfl | ⟨1, _⟩ => rfl)

/-- The stacked weight matrix at a row of its lower half. -/
theorem stackW_lower (w1 w2 : S64x2048.Idx → α) (k : Fin 64) (j : Fin 2048) :
    concatenate S128x2048 0 [⟨S64x2048, w1⟩, ⟨S64x2048, w2⟩] concatenates_S64x2048_S64x2048_S128x2048_d0
      (ix2 (⟨64 + k.val, by omega⟩ : Fin 128) j) = w2 (ix2 k j) :=
  concatenate_pair_apply_right (t := S128x2048) (s₁ := S64x2048) (s₂ := S64x2048) (0 : Fin 2) w1 w2 concatenates_S64x2048_S64x2048_S128x2048_d0
    (ix2 (⟨64 + k.val, by omega⟩ : Fin 128) j) rfl rfl (ix2 k j)
    (fun b hb => by match b with | ⟨0, _⟩ => exact absurd rfl hb | ⟨1, _⟩ => rfl)
    (by show k.val + 64 = 64 + k.val; omega)

/-- The stacked bias row at a column of its first half. -/
theorem stackB_first (c1 c2 : S64.Idx → α) (k : Fin 64) :
    shapeCast S1x128 (concatenate S128 0 [⟨S64, c1⟩, ⟨S64, c2⟩] concatenates_S64_S64_S128_d0) shapeCasts_S128_S1x128
      (ix2 (0 : Fin 1) (⟨k.val, by omega⟩ : Fin 128)) = c1 (ix1 k) := by
  rw [shapeCast_apply _ shapeCasts_S128_S1x128 _ (ix1 (⟨k.val, by omega⟩ : Fin 128))
    (by rw [Shape.rowMajor_val_one, Shape.rowMajor_val_two]; show k.val = 0 * 128 + k.val; omega)]
  exact concatenate_pair_apply_left (t := S128) (s₁ := S64) (s₂ := S64) (0 : Fin 1) c1 c2 concatenates_S64_S64_S128_d0
    (ix1 (⟨k.val, by omega⟩ : Fin 128)) rfl (ix1 k) (fun b => by match b with | ⟨0, _⟩ => rfl)

/-- The stacked bias row at a column of its second half. -/
theorem stackB_second (c1 c2 : S64.Idx → α) (k : Fin 64) :
    shapeCast S1x128 (concatenate S128 0 [⟨S64, c1⟩, ⟨S64, c2⟩] concatenates_S64_S64_S128_d0) shapeCasts_S128_S1x128
      (ix2 (0 : Fin 1) (⟨64 + k.val, by omega⟩ : Fin 128)) = c2 (ix1 k) := by
  rw [shapeCast_apply _ shapeCasts_S128_S1x128 _ (ix1 (⟨64 + k.val, by omega⟩ : Fin 128))
    (by rw [Shape.rowMajor_val_one, Shape.rowMajor_val_two]; show 64 + k.val = 0 * 128 + (64 + k.val); omega)]
  exact concatenate_pair_apply_right (t := S128) (s₁ := S64) (s₂ := S64) (0 : Fin 1) c1 c2 concatenates_S64_S64_S128_d0
    (ix1 (⟨64 + k.val, by omega⟩ : Fin 128)) rfl rfl (ix1 k)
    (fun b hb => by match b with | ⟨0, _⟩ => exact absurd rfl hb)
    (by show k.val + 64 = 64 + k.val; omega)

end Layout

end Cert.KernelIdeal.Hand

end
-- ==== Proof.Spec.lean ====
/-
  The mathematics of the two programs, stated once with no program in sight.

  Per batch, with V the batch's 256 x 2048 matrix and r, l its two 256 x 64 non-negative feature
  matrices (an affine layer followed by relu), write u n m = Σ_k l n k * r m k and d n = (u n n + ε)^(-1/2).
  One program averages over n the rows of M · V where M n m = 1 + [n = m] - d m * u n m * d n; the other
  never forms M: since Σ_n M n m = 257 - d m * Σ_k r m k * (Σ_n d n * l n k), it takes that column sum, multiplies
  the rows of V by it, sums and scales by 1/256. Both then apply one linear layer and a batch normalisation
  over the 64 batches. The two arrangements are the definitions below; that they agree (for real entries)
  is proved in the algebra module, and that each program computes its arrangement in the reading modules.
-/
import Idealize.ShloMosaic.PureOps.Ideal
import Idealize.ShloMosaic.PureOps.Ideal.Laws

noncomputable section

namespace Cert.Spec

open Idealize.ShloMosaic

/-- A weight-normalised row: v k j * (g k / sqrt (Σ_j v k j ^ 2)). -/
def wn (v : Fin 64 → Fin 2048 → EReal) (g : Fin 64 → EReal) (k : Fin 64) (j : Fin 2048) : EReal :=
  v k j * Ideal.div (g k) (Ideal.sqrt (∑ j' : Fin 2048, v k j' * v k j'))

/-- One affine layer followed by relu, on the rows of one batch: max (Σ_j V n j * W k j + b k) 0. -/
def act (V : Fin 256 → Fin 2048 → EReal) (W : Fin 64 → Fin 2048 → EReal) (b : Fin 64 → EReal)
    (n : Fin 256) (k : Fin 64) : EReal :=
  max ((∑ j : Fin 2048, V n j * W k j) + b k) 0

/-! ## The column-sum arrangement -/

/-- u n n: the inner product of row n of l and row n of r. -/
def diag (r l : Fin 256 → Fin 64 → EReal) (n : Fin 256) : EReal := ∑ k : Fin 64, l n k * r n k

/-- d n = (u n n + ε)^(-1/2). -/
def dK (r l : Fin 256 → Fin 64 → EReal) (n : Fin 256) : EReal :=
  Ideal.rsqrt (diag r l n + Ideal.ofBits .f32 0x358637BD#32)

/-- Σ_n d n * l n k. -/
def dl (r l : Fin 256 → Fin 64 → EReal) (k : Fin 64) : EReal := ∑ n : Fin 256, dK r l n * l n k

/-- Σ_k r n k * (Σ_n' d n' * l n' k). -/
def rdl (r l : Fin 256 → Fin 64 → EReal) (n : Fin 256) : EReal := ∑ k : Fin 64, r n k * dl r l k

/-- The column sum of M: 257 - d n * rdl n. -/
def col (r l : Fin 256 → Fin 64 → EReal) (n : Fin 256) : EReal :=
  Ideal.ofBits .f32 0x43808000#32 - dK r l n * rdl r l n

/-- (Σ_n col n * V n j) * (1/256). -/
def featsK (V : Fin 256 → Fin 2048 → EReal) (r l : Fin 256 → Fin 64 → EReal) (j : Fin 2048) : EReal :=
  (∑ n : Fin 256, col r l n * V n j) * Ideal.ofBits .f32 0x3B800000#32

/-! ## The full-matrix arrangement -/

/-- u n m = Σ_k l n k * r m k. -/
def unc (r l : Fin 256 → Fin 64 → EReal) (n m : Fin 256) : EReal := ∑ k : Fin 64, l n k * r m k

/-- The diagonal taken through a mask: Σ_n (if n = m then u n m else 0). -/
def diagR (r l : Fin 256 → Fin 64 → EReal) (m : Fin 256) : EReal :=
  ∑ n : Fin 256, (if n = m then unc r l n m else 0)

/-- d m = (u m m + ε)^(-1/2), with the diagonal taken through the mask. -/
def dR (r l : Fin 256 → Fin 64 → EReal) (m : Fin 256) : EReal :=
  Ideal.rsqrt (diagR r l m + Ideal.ofBits .f32 0x358637BD#32)

/-- M n m = (1 + [n = m]) - (d m * u n m) * d n. -/
def Mfull (r l : Fin 256 → Fin 64 → EReal) (n m : Fin 256) : EReal :=
  (Ideal.ofBits .f32 0x3F800000#32 + (if n = m then (1 : EReal) else 0)) - (dR r l m * unc r l n m) * dR r l n

/-- (Σ_n Σ_m M n m * V m j) / 256. -/
def featsR (V : Fin 256 → Fin 2048 → EReal) (r l : Fin 256 → Fin 64 → EReal) (j : Fin 2048) : EReal :=
  Ideal.div (∑ n : Fin 256, ∑ m : Fin 256, Mfull r l n m * V m j) (Ideal.ofBits .f32 0x43800000#32)

/-! ## The tail both programs share: a linear layer and a batch normalisation over the 64 batches -/

/-- x b e = Σ_j F b j * Wl e j + bl e. -/
def lin (F : Fin 64 → Fin 2048 → EReal) (Wl : Fin 1024 → Fin 2048 → EReal) (bl : Fin 1024 → EReal)
    (b : Fin 64) (e : Fin 1024) : EReal :=
  (∑ j : Fin 2048, F b j * Wl e j) + bl e

/-- The batch mean (Σ_b x b e) / 64. -/
def mu (x : Fin 64 → Fin 1024 → EReal) (e : Fin 1024) : EReal :=
  Ideal.div (∑ b : Fin 64, x b e) (Ideal.ofBits .f32 0x42800000#32)

/-- The biased batch variance (Σ_b (x b e - mu e)^2) / 64. -/
def var (x : Fin 64 → Fin 1024 → EReal) (e : Fin 1024) : EReal :=
  Ideal.div (∑ b : Fin 64, (x b e - mu x e) * (x b e - mu x e)) (Ideal.ofBits .f32 0x42800000#32)

/-- γ e * (x b e - mu e) * (var e + ε')^(-1/2) + β e. -/
def bn (x : Fin 64 → Fin 1024 → EReal) (ga be : Fin 1024 → EReal) (b : Fin 64) (e : Fin 1024) : EReal :=
  (ga e * (x b e - mu x e)) * Ideal.rsqrt (var x e + Ideal.ofBits .f32 0x3727C5AC#32) + be e

/-- The whole tail. -/
def tail (F : Fin 64 → Fin 2048 → EReal) (Wl : Fin 1024 → Fin 2048 → EReal) (bl ga be : Fin 1024 → EReal)
    (b : Fin 64) (e : Fin 1024) : EReal :=
  bn (lin F Wl bl) ga be b e

end Cert.Spec

end
-- ==== Proof.PayTail.lean ====
/-
  The second kernel body's arithmetic, read at one element, is the shared tail.

  The body multiplies the 64 x 2048 feature matrix by the transposed 1024 x 2048 weight matrix, adds the bias
  row, takes each column's mean and biased variance over the 64 rows, and returns
  γ · (x − mean) · (variance + ε')^(-1/2) + β. Each stage is read at an index: the matrix product as a sum over
  the 2048 contracted coordinates, a column sum as a sum over the 64 rows, a broadcast row at its column.
-/
import proofs.«102167_j37211596653081_2_alg».proof.Proof.Gen.KernelIdeal.Skeleton
import proofs.«102167_j37211596653081_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.PayRead

open Idealize.ShloMosaic Idealize.ShloMosaic.ValueIdx Cert.KernelIdeal Cert.KernelIdeal.Gen
open scoped BigOperators

/-- The dimension numbers of the second kernel's matrix product (rows of the left operand against rows of the right). -/
abbrev DT : DotDims S64x2048 S1024x2048 S64x1024 := dot_S64x2048_S1024x2048_S64x1024_1_1_0_0_n_n

theorem DT_lhs0 (i : S64x1024.Idx) (q : DT.contr.Idx) : (DT.lhsIdx i q 0).val = (i 0).val := by
  unfold DotDims.lhsIdx
  rw [dif_neg (show ¬(0 : Fin S64x2048.rank) ∈ DT.lhsBatch by decide), dif_pos (show (0 : Fin S64x2048.rank) ∈ DT.lhsNonContracting by decide)]
  rfl
theorem DT_lhs1 (i : S64x1024.Idx) (q : DT.contr.Idx) : (DT.lhsIdx i q 1).val = (q ⟨0, by decide⟩).val :=
  DT.lhsIdx_val_of_single rfl i q
theorem DT_rhs0 (i : S64x1024.Idx) (q : DT.contr.Idx) : (DT.rhsIdx i q 0).val = (i 1).val := by
  unfold DotDims.rhsIdx
  rw [dif_neg (show ¬(0 : Fin S1024x2048.rank) ∈ DT.rhsBatch by decide), dif_pos (show (0 : Fin S1024x2048.rank) ∈ DT.rhsNonContracting by decide)]
  rfl
theorem DT_rhs1 (i : S64x1024.Idx) (q : DT.contr.Idx) : (DT.rhsIdx i q 1).val = (q ⟨0, by decide⟩).val :=
  DT.rhsIdx_val_of_single rfl i q

/-- The second kernel's matrix product at (b, e): the inner product of row b of the left operand with row e of the right. -/
theorem mmTail_apply (A : FVec Ideal S64x2048 .f32) (B : FVec Ideal S1024x2048 .f32) (b : Fin 64) (e : Fin 1024) :
    matmul DT (some .fp32) A B (constant (F := Ideal) S64x1024 .f32 0x00000000#32) (ix2 b e)
      = ∑ j : Fin 2048, A (ix2 b j) * B (ix2 e j) := by
  simp only [matmul]
  rw [Ideal.matmul_constant_zero_apply, ← Equiv.sum_comp (contrEquiv1 DT 2048 rfl rfl).symm]
  refine Finset.sum_congr rfl fun k _ => ?_
  have hk := contrEquiv1_symm_val DT 2048 rfl rfl k
  have el : DT.lhsIdx (ix2 b e) ((contrEquiv1 DT 2048 rfl rfl).symm k) = ix2 b k := funext fun a => Fin.ext (by
    match a with
    | ⟨0, _⟩ => exact DT_lhs0 _ _
    | ⟨1, _⟩ => exact (DT_lhs1 _ _).trans hk)
  have er : DT.rhsIdx (ix2 b e) ((contrEquiv1 DT 2048 rfl rfl).symm k) = ix2 e k := funext fun a => Fin.ext (by
    match a with
    | ⟨0, _⟩ => exact DT_rhs0 _ _
    | ⟨1, _⟩ => exact (DT_rhs1 _ _).trans hk)
  rw [el, er]

/-- The sum over the 64 rows, kept as a one-row matrix, read at (0, e): the sum of column e. -/
theorem colsum64_apply (X : FVec Ideal S64x1024 .f32) (e : Fin 1024) :
    shapeCast S1x1024 (multiReduction .add [0] S1024 X 0x00000000#32 reduces_S64x1024_S1024 (.inl rfl) rfl) shapeCasts_S1024_S1x1024 (ix2 (0 : Fin 1) e)
      = ∑ b : Fin 64, X (ix2 b e) := by
  refine (shapeCast_a_1a_apply _ _ _ _).trans ?_
  refine (Ideal.multiReduction_add_single X 0x00000000#32 reduces_S64x1024_S1024 (.inl rfl) rfl (ix1 e)).trans ?_
  refine Finset.sum_congr rfl fun k _ => ?_
  exact congrArg X (funext fun a => Fin.ext (by match a with | ⟨0, _⟩ => rfl | ⟨1, _⟩ => rfl))

/-! ## The second kernel's payload read at (b, e)

The payload forms x = A · Bᵀ + c, the column means mu, the centred entries, the column variances, and
returns gamma * (x - mu) * (var + eps)^(-1/2) + beta. Each stage is named and read at an index on its own;
the payload is their composition by unfolding. -/

/-- x = A · Bᵀ + c (the bias row repeated over the 64 rows). -/
def linV (A : FVec Ideal S64x2048 .f32) (B : FVec Ideal S1024x2048 .f32) (c : FVec Ideal S1x1024 .f32) : FVec Ideal S64x1024 .f32 :=
  addf (matmul dot_S64x2048_S1024x2048_S64x1024_1_1_0_0_n_n (some .fp32) (shapeCast S64x2048 A shapeCasts_S64x2048_S64x2048) B (constant S64x1024 .f32 0x00000000#32))
    (broadcastTo S64x1024 (shapeCast S1x1024 c shapeCasts_S1x1024_S1x1024) broadcasts_S1x1024_S64x1024)

theorem linV_apply (A : FVec Ideal S64x2048 .f32) (B : FVec Ideal S1024x2048 .f32) (c : FVec Ideal S1x1024 .f32) (b : Fin 64) (e : Fin 1024) :
    linV A B c (ix2 b e) = Spec.lin (fun b j => A (ix2 b j)) (fun e j => B (ix2 e j)) (fun e => c (ix2 0 e)) b e := by
  unfold linV Spec.lin
  rw [addf_apply, shapeCast_self, shapeCast_self, broadcastTo_1b_ab_apply]
  exact congrArg (· + c (ix2 0 e)) (mmTail_apply A B b e)

/-- The column means, as a one-row matrix. -/
def muV (X : FVec Ideal S64x1024 .f32) : FVec Ideal S1x1024 .f32 :=
  divf (shapeCast S1x1024 (multiReduction .add [0] S1024 X 0x00000000#32 reduces_S64x1024_S1024 (.inl rfl) rfl) shapeCasts_S1024_S1x1024)
    (broadcast S1x1024 (Scalar.ofBits .f32 0x42800000#32))

theorem muV_apply (X : FVec Ideal S64x1024 .f32) (e : Fin 1024) :
    muV X (ix2 (0 : Fin 1) e) = Spec.mu (fun b e => X (ix2 b e)) e := by
  unfold muV Spec.mu
  rw [divf_apply, colsum64_apply]
  rfl

/-- The entries minus their column's mean. -/
def cenV (X : FVec Ideal S64x1024 .f32) : FVec Ideal S64x1024 .f32 :=
  subf X (broadcastTo S64x1024 (muV X) broadcasts_S1x1024_S64x1024)

theorem cenV_apply (X : FVec Ideal S64x1024 .f32) (b : Fin 64) (e : Fin 1024) :
    cenV X (ix2 b e) = X (ix2 b e) - Spec.mu (fun b e => X (ix2 b e)) e := by
  unfold cenV
  rw [subf_apply, broadcastTo_1b_ab_apply, muV_apply]

/-- The column variances (biased), as a one-row matrix. -/
def varV (X : FVec Ideal S64x1024 .f32) : FVec Ideal S1x1024 .f32 :=
  divf (shapeCast S1x1024 (multiReduction .add [0] S1024 (mulf (cenV X) (cenV X)) 0x00000000#32 reduces_S64x1024_S1024 (.inl rfl) rfl) shapeCasts_S1024_S1x1024)
    (broadcast S1x1024 (Scalar.ofBits .f32 0x42800000#32))

theorem varV_apply (X : FVec Ideal S64x1024 .f32) (e : Fin 1024) :
    varV X (ix2 (0 : Fin 1) e) = Spec.var (fun b e => X (ix2 b e)) e := by
  unfold varV Spec.var
  rw [divf_apply, colsum64_apply]
  refine congrArg (fun t => Ideal.div t _) (Finset.sum_congr rfl fun b _ => ?_)
  rw [mulf_apply, cenV_apply]

/-- The batch normalisation of x with scale row g and shift row h. -/
def bnV (X : FVec Ideal S64x1024 .f32) (g h : FVec Ideal S1x1024 .f32) : FVec Ideal S64x1024 .f32 :=
  addf
    (mulf (mulf (broadcastTo S64x1024 g broadcasts_S1x1024_S64x1024) (cenV X))
      (broadcastTo S64x1024 (rsqrt (addf (varV X) (broadcast S1x1024 (Scalar.ofBits .f32 0x3727C5AC#32)))) broadcasts_S1x1024_S64x1024))
    (broadcastTo S64x1024 h broadcasts_S1x1024_S64x1024)

theorem rsqrt_apply {s : Shape} {φ : FTy} (a : FVec Ideal s φ) (i : s.Idx) : rsqrt a i = Ideal.rsqrt (a i) := rfl

theorem bnV_apply (X : FVec Ideal S64x1024 .f32) (g h : FVec Ideal S1x1024 .f32) (b : Fin 64) (e : Fin 1024) :
    bnV X g h (ix2 b e) = Spec.bn (fun b e => X (ix2 b e)) (fun e => g (ix2 0 e)) (fun e => h (ix2 0 e)) b e := by
  unfold bnV Spec.bn
  rw [addf_apply, mulf_apply, mulf_apply, broadcastTo_1b_ab_apply, broadcastTo_1b_ab_apply, broadcastTo_1b_ab_apply,
    cenV_apply, rsqrt_apply, addf_apply, varV_apply]
  rfl

/-- The payload is the composition of the stages. -/
theorem k1_pay1_eq (Y0 : Vec Ideal S64x2048 .f32) (Y1 : Vec Ideal S1024x2048 .f32) (Y2 Y3 Y4 : Vec Ideal S1x1024 .f32) :
    Gen.k1_pay1 Y0 Y1 Y2 Y3 Y4
      = bnV (linV Y0 Y1 Y2) (shapeCast S1x1024 Y3 shapeCasts_S1x1024_S1x1024) (shapeCast S1x1024 Y4 shapeCasts_S1x1024_S1x1024) := rfl

/-- THE SECOND KERNEL'S PAYLOAD AT (b, e) is the shared tail of the specification on the rows it reads. -/
theorem tail_pay (Y0 : Vec Ideal S64x2048 .f32) (Y1 : Vec Ideal S1024x2048 .f32) (Y2 Y3 Y4 : Vec Ideal S1x1024 .f32)
    (b : Fin 64) (e : Fin 1024) :
    Gen.k1_pay1 Y0 Y1 Y2 Y3 Y4 (ix2 b e)
      = Spec.tail (fun b j => Y0 (ix2 b j)) (fun e j => Y1 (ix2 e j)) (fun e => Y2 (ix2 0 e)) (fun e => Y3 (ix2 0 e))
          (fun e => Y4 (ix2 0 e)) b e := by
  rw [k1_pay1_eq, bnV_apply]
  unfold Spec.tail
  simp only [shapeCast_self, linV_apply]

end Cert.PayRead

end
-- ==== Proof.PayFeats.lean ====
/-
  The first kernel body's arithmetic, read at one element, is the column-sum arrangement.

  The body flattens four batches into 1024 rows, multiplies by the transposed 128 x 2048 weight matrix, adds the
  bias row and clips at zero; columns 0-63 are one feature matrix, columns 64-127 the other. Per batch it then
  forms u n n as a sum over the 64 features, d = (u n n + ε)^(-1/2), the vector Σ_n d n · l n k, its product with each
  row of r, the column sum 257 − d · (that), the weighted sum of the batch's rows and the scale 1/256. Each
  stage is read at an index: a re-layout at the coordinates it moves, a sum along an axis as a sum over that
  axis's coordinates, the matrix product as a sum over the 2048 contracted coordinates.
-/
import proofs.«102167_j37211596653081_2_alg».proof.Proof.Gen.KernelIdeal.Skeleton
import proofs.«102167_j37211596653081_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.PayRead

open Idealize.ShloMosaic Idealize.ShloMosaic.ValueIdx Cert.KernelIdeal Cert.KernelIdeal.Gen
open scoped BigOperators

/-! ## The first kernel's layout operations read at coordinates -/

section Layout
variable {α : Type}

/-- Four batches' rows stacked: row p * 256 + n of the 1024-row matrix is row n of batch p. -/
theorem stackRows_apply (X : S4x256x2048.Idx → α) (p : Fin 4) (n : Fin 256) (j : Fin 2048) :
    shapeCast S1024x2048 X shapeCasts_S4x256x2048_S1024x2048 (ix2 (⟨p.val * 256 + n.val, by omega⟩ : Fin 1024) j) = X (ix3 p n j) :=
  shapeCast_apply X _ _ _ (by
    rw [Shape.rowMajor_val_three, Shape.rowMajor_val_two]
    rfl)

/-- … and unstacked again: entry (p, n, c) of the 4 x 256 x 128 view is row p * 256 + n of the 1024-row matrix. -/
theorem unstackRows_apply (Y : S1024x128.Idx → α) (p : Fin 4) (n : Fin 256) (c : Fin 128) :
    shapeCast S4x256x128 Y shapeCasts_S1024x128_S4x256x128 (ix3 p n c) = Y (ix2 (⟨p.val * 256 + n.val, by omega⟩ : Fin 1024) c) :=
  shapeCast_apply Y _ _ _ (by
    rw [Shape.rowMajor_val_three, Shape.rowMajor_val_two]
    rfl)

/-- The first 64 columns. -/
theorem sliceLo_apply (Y : S4x256x128.Idx → α) (p : Fin 4) (n : Fin 256) (k : Fin 64) :
    extractStridedSlice S4x256x64 ![0, 0, 0] Y slices_S4x256x128_o0_0_0_S4x256x64 (ix3 p n k)
      = Y (ix3 p n (⟨k.val, by omega⟩ : Fin 128)) :=
  extractStridedSlice_apply _ Y _ _ _ (fun ax => by
    match ax with
    | ⟨0, _⟩ => exact (Nat.zero_add _).symm
    | ⟨1, _⟩ => exact (Nat.zero_add _).symm
    | ⟨2, _⟩ => exact (Nat.zero_add _).symm)

/-- The last 64 columns. -/
theorem sliceHi_apply (Y : S4x256x128.Idx → α) (p : Fin 4) (n : Fin 256) (k : Fin 64) :
    extractStridedSlice S4x256x64 ![0, 0, 64] Y slices_S4x256x128_o0_0_64_S4x256x64 (ix3 p n k)
      = Y (ix3 p n (⟨64 + k.val, by omega⟩ : Fin 128)) :=
  extractStridedSlice_apply _ Y _ _ _ (fun ax => by
    match ax with
    | ⟨0, _⟩ => exact (Nat.zero_add _).symm
    | ⟨1, _⟩ => exact (Nat.zero_add _).symm
    | ⟨2, _⟩ => rfl)

/-- A per-row scalar kept as a one-column array: (p, n, 0) reads (p, n). -/
theorem colKeep_apply (W : S4x256.Idx → α) (p : Fin 4) (n : Fin 256) (u : Fin 1) :
    shapeCast S4x256x1 W shapeCasts_S4x256_S4x256x1 (ix3 p n u) = W (ix2 p n) :=
  shapeCast_apply W _ _ _ (by
    have hu : u.val = 0 := by omega
    rw [Shape.rowMajor_val_three, Shape.rowMajor_val_two]
    show p.val * 256 + n.val = (p.val * 256 + n.val) * 1 + u.val
    omega)

/-- A per-column scalar kept as a one-row array: (p, 0, k) reads (p, k). -/
theorem rowKeep64_apply (W : S4x64.Idx → α) (p : Fin 4) (u : Fin 1) (k : Fin 64) :
    shapeCast S4x1x64 W shapeCasts_S4x64_S4x1x64 (ix3 p u k) = W (ix2 p k) :=
  shapeCast_apply W _ _ _ (by
    have hu : u.val = 0 := by omega
    rw [Shape.rowMajor_val_three, Shape.rowMajor_val_two]
    show p.val * 64 + k.val = (p.val * 1 + u.val) * 64 + k.val
    omega)

/-- The same for the 2048 feature columns. -/
theorem rowKeep2048_apply (W : S4x2048.Idx → α) (p : Fin 4) (u : Fin 1) (j : Fin 2048) :
    shapeCast S4x1x2048 W shapeCasts_S4x2048_S4x1x2048 (ix3 p u j) = W (ix2 p j) :=
  shapeCast_apply W _ _ _ (by
    have hu : u.val = 0 := by omega
    rw [Shape.rowMajor_val_three, Shape.rowMajor_val_two]
    show p.val * 2048 + j.val = (p.val * 1 + u.val) * 2048 + j.val
    omega)

/-- A one-column array repeated along 64 columns. -/
theorem bcastCol64_apply (W : S4x256x1.Idx → α) (p : Fin 4) (n : Fin 256) (k : Fin 64) :
    broadcastTo S4x256x64 W broadcasts_S4x256x1_S4x256x64 (ix3 p n k) = W (ix3 p n (0 : Fin 1)) := by
  refine broadcastTo_apply W _ (ix3 p n k) (ix3 p n (0 : Fin 1)) fun ax => ?_
  match ax with
  | ⟨0, _⟩ => show p.val = if (4 : Nat) = 1 then 0 else p.val; rw [if_neg (by decide)]
  | ⟨1, _⟩ => show n.val = if (256 : Nat) = 1 then 0 else n.val; rw [if_neg (by decide)]
  | ⟨2, _⟩ => show (0 : Fin 1).val = if (1 : Nat) = 1 then 0 else k.val; rw [if_pos rfl]; rfl

/-- A one-column array repeated along 2048 columns. -/
theorem bcastCol2048_apply (W : S4x256x1.Idx → α) (p : Fin 4) (n : Fin 256) (j : Fin 2048) :
    broadcastTo S4x256x2048 W broadcasts_S4x256x1_S4x256x2048 (ix3 p n j) = W (ix3 p n (0 : Fin 1)) := by
  refine broadcastTo_apply W _ (ix3 p n j) (ix3 p n (0 : Fin 1)) fun ax => ?_
  match ax with
  | ⟨0, _⟩ => show p.val = if (4 : Nat) = 1 then 0 else p.val; rw [if_neg (by decide)]
  | ⟨1, _⟩ => show n.val = if (256 : Nat) = 1 then 0 else n.val; rw [if_neg (by decide)]
  | ⟨2, _⟩ => show (0 : Fin 1).val = if (1 : Nat) = 1 then 0 else j.val; rw [if_pos rfl]; rfl

/-- A one-row array repeated along 256 rows. -/
theorem bcastRow64_apply (W : S4x1x64.Idx → α) (p : Fin 4) (n : Fin 256) (k : Fin 64) :
    broadcastTo S4x256x64 W broadcasts_S4x1x64_S4x256x64 (ix3 p n k) = W (ix3 p (0 : Fin 1) k) := by
  refine broadcastTo_apply W _ (ix3 p n k) (ix3 p (0 : Fin 1) k) fun ax => ?_
  match ax with
  | ⟨0, _⟩ => show p.val = if (4 : Nat) = 1 then 0 else p.val; rw [if_neg (by decide)]
  | ⟨1, _⟩ => show (0 : Fin 1).val = if (1 : Nat) = 1 then 0 else n.val; rw [if_pos rfl]; rfl
  | ⟨2, _⟩ => show k.val = if (64 : Nat) = 1 then 0 else k.val; rw [if_neg (by decide)]

end Layout

/-! ## The first kernel's sums read at coordinates -/

/-- A sum along the 64 columns. -/
theorem sumLane_apply (Z : FVec Ideal S4x256x64 .f32) (p : Fin 4) (n : Fin 256) :
    multiReduction .add [2] S4x256 Z 0x00000000#32 reduces_S4x256x64_S4x256 (.inl rfl) rfl (ix2 p n)
      = ∑ k : Fin 64, Z (ix3 p n k) := by
  refine (Ideal.multiReduction_add_single Z 0x00000000#32 reduces_S4x256x64_S4x256 (.inl rfl) rfl (ix2 p n)).trans ?_
  refine Finset.sum_congr rfl fun k _ => ?_
  exact congrArg Z (funext fun a => Fin.ext (by match a with | ⟨0, _⟩ => rfl | ⟨1, _⟩ => rfl | ⟨2, _⟩ => rfl))

/-- A sum along the 256 rows of a 64-column array. -/
theorem sumRows64_apply (Z : FVec Ideal S4x256x64 .f32) (p : Fin 4) (k : Fin 64) :
    multiReduction .add [1] S4x64 Z 0x00000000#32 reduces_S4x256x64_S4x64 (.inl rfl) rfl (ix2 p k)
      = ∑ n : Fin 256, Z (ix3 p n k) := by
  refine (Ideal.multiReduction_add_single Z 0x00000000#32 reduces_S4x256x64_S4x64 (.inl rfl) rfl (ix2 p k)).trans ?_
  refine Finset.sum_congr rfl fun n _ => ?_
  exact congrArg Z (funext fun a => Fin.ext (by match a with | ⟨0, _⟩ => rfl | ⟨1, _⟩ => rfl | ⟨2, _⟩ => rfl))

/-- A sum along the 256 rows of a 2048-column array. -/
theorem sumRows2048_apply (Z : FVec Ideal S4x256x2048 .f32) (p : Fin 4) (j : Fin 2048) :
    multiReduction .add [1] S4x2048 Z 0x00000000#32 reduces_S4x256x2048_S4x2048 (.inl rfl) rfl (ix2 p j)
      = ∑ n : Fin 256, Z (ix3 p n j) := by
  refine (Ideal.multiReduction_add_single Z 0x00000000#32 reduces_S4x256x2048_S4x2048 (.inl rfl) rfl (ix2 p j)).trans ?_
  refine Finset.sum_congr rfl fun n _ => ?_
  exact congrArg Z (funext fun a => Fin.ext (by match a with | ⟨0, _⟩ => rfl | ⟨1, _⟩ => rfl | ⟨2, _⟩ => rfl))

/-! ## The first kernel's matrix product read at coordinates -/

/-- The dimension numbers of the first kernel's matrix product (rows of the left operand against rows of the right). -/
abbrev DF : DotDims S1024x2048 S128x2048 S1024x128 := dot_S1024x2048_S128x2048_S1024x128_1_1_0_0_n_n

theorem DF_lhs0 (i : S1024x128.Idx) (q : DF.contr.Idx) : (DF.lhsIdx i q 0).val = (i 0).val := by
  unfold DotDims.lhsIdx
  rw [dif_neg (show ¬(0 : Fin S1024x2048.rank) ∈ DF.lhsBatch by decide), dif_pos (show (0 : Fin S1024x2048.rank) ∈ DF.lhsNonContracting by decide)]
  rfl
theorem DF_lhs1 (i : S1024x128.Idx) (q : DF.contr.Idx) : (DF.lhsIdx i q 1).val = (q ⟨0, by decide⟩).val :=
  DF.lhsIdx_val_of_single rfl i q
theorem DF_rhs0 (i : S1024x128.Idx) (q : DF.contr.Idx) : (DF.rhsIdx i q 0).val = (i 1).val := by
  unfold DotDims.rhsIdx
  rw [dif_neg (show ¬(0 : Fin S128x2048.rank) ∈ DF.rhsBatch by decide), dif_pos (show (0 : Fin S128x2048.rank) ∈ DF.rhsNonContracting by decide)]
  rfl
theorem DF_rhs1 (i : S1024x128.Idx) (q : DF.contr.Idx) : (DF.rhsIdx i q 1).val = (q ⟨0, by decide⟩).val :=
  DF.rhsIdx_val_of_single rfl i q

/-- The first kernel's matrix product at (r, c): the inner product of row r of the left operand with row c of the right. -/
theorem mmFeats_apply (A : FVec Ideal S1024x2048 .f32) (B : FVec Ideal S128x2048 .f32) (r : Fin 1024) (c : Fin 128) :
    matmul DF (some .fp32) A B (constant (F := Ideal) S1024x128 .f32 0x00000000#32) (ix2 r c)
      = ∑ j : Fin 2048, A (ix2 r j) * B (ix2 c j) := by
  simp only [matmul]
  rw [Ideal.matmul_constant_zero_apply, ← Equiv.sum_comp (contrEquiv1 DF 2048 rfl rfl).symm]
  refine Finset.sum_congr rfl fun k _ => ?_
  have hk := contrEquiv1_symm_val DF 2048 rfl rfl k
  have el : DF.lhsIdx (ix2 r c) ((contrEquiv1 DF 2048 rfl rfl).symm k) = ix2 r k := funext fun a => Fin.ext (by
    match a with
    | ⟨0, _⟩ => exact DF_lhs0 _ _
    | ⟨1, _⟩ => exact (DF_lhs1 _ _).trans hk)
  have er : DF.rhsIdx (ix2 r c) ((contrEquiv1 DF 2048 rfl rfl).symm k) = ix2 c k := funext fun a => Fin.ext (by
    match a with
    | ⟨0, _⟩ => exact DF_rhs0 _ _
    | ⟨1, _⟩ => exact (DF_rhs1 _ _).trans hk)
  rw [el, er]

/-! ## The first kernel's payload read at (p, 0, j)

The payload projects the four batches' stacked rows through the 128 weight rows (an affine layer and relu), splits
the 128 columns into the right and left feature halves, and then forms, per batch, the diagonal inner products,
their inverse square roots d, the sums Σ_n d n * l n k, the sums Σ_k r n k * (…), the column sums 257 - d n * (…),
and the weighted row average. Each stage is named and read at an index on its own; the payload is their composition
by unfolding. -/

theorem rsqrtV_apply {s : Shape} {φ : FTy} (a : FVec Ideal s φ) (i : s.Idx) : rsqrt a i = Ideal.rsqrt (a i) := rfl

/-- relu (V · Wᵀ + bias) on the stacked rows, viewed per batch again. -/
def projV (X0 : FVec Ideal S4x256x2048 .f32) (X1 : FVec Ideal S128x2048 .f32) (X2 : FVec Ideal S1x128 .f32) :
    FVec Ideal S4x256x128 .f32 :=
  shapeCast S4x256x128
    (maximumf
      (addf
        (matmul dot_S1024x2048_S128x2048_S1024x128_1_1_0_0_n_n (some .fp32)
          (shapeCast S1024x2048 X0 shapeCasts_S4x256x2048_S1024x2048) (shapeCast S128x2048 X1 shapeCasts_S128x2048_S128x2048)
          (constant S1024x128 .f32 0x00000000#32))
        (broadcastTo S1024x128 (shapeCast S1x128 X2 shapeCasts_S1x128_S1x128) broadcasts_S1x128_S1024x128))
      (broadcast S1024x128 (Scalar.ofBits .f32 0x00000000#32)))
    shapeCasts_S1024x128_S4x256x128

theorem projV_apply (X0 : FVec Ideal S4x256x2048 .f32) (X1 : FVec Ideal S128x2048 .f32) (X2 : FVec Ideal S1x128 .f32)
    (p : Fin 4) (n : Fin 256) (c : Fin 128) :
    projV X0 X1 X2 (ix3 p n c)
      = max ((∑ j : Fin 2048, X0 (ix3 p n j) * X1 (ix2 c j)) + X2 (ix2 (0 : Fin 1) c)) 0 := by
  unfold projV
  rw [unstackRows_apply, maximumf_apply, addf_apply, shapeCast_self, shapeCast_self, broadcastTo_1b_ab_apply, broadcast_apply,
    mmFeats_apply]
  rw [show (Scalar.ofBits .f32 0x00000000#32 : Ideal .f32) = 0 from Ideal.ofBits_zero_f32]
  refine congrArg (fun t => max (t + X2 (ix2 (0 : Fin 1) c)) 0) (Finset.sum_congr rfl fun j _ => ?_)
  rw [stackRows_apply]

/-- The right features: the projection's first 64 columns. -/
def rightV (P : FVec Ideal S4x256x128 .f32) : FVec Ideal S4x256x64 .f32 :=
  extractStridedSlice S4x256x64 ![0, 0, 0] P slices_S4x256x128_o0_0_0_S4x256x64

/-- The left features: the projection's last 64 columns. -/
def leftV (P : FVec Ideal S4x256x128 .f32) : FVec Ideal S4x256x64 .f32 :=
  extractStridedSlice S4x256x64 ![0, 0, 64] P slices_S4x256x128_o0_0_64_S4x256x64

section Stages
variable (R L : FVec Ideal S4x256x64 .f32)

/-- The diagonal inner products Σ_k l n k * r n k, kept as a one-column array. -/
def diagV : FVec Ideal S4x256x1 .f32 :=
  shapeCast S4x256x1 (multiReduction .add [2] S4x256 (mulf L R) 0x00000000#32 reduces_S4x256x64_S4x256 (.inl rfl) rfl)
    shapeCasts_S4x256_S4x256x1

theorem diagV_apply (p : Fin 4) (n : Fin 256) :
    diagV R L (ix3 p n (0 : Fin 1)) = Spec.diag (fun n k => R (ix3 p n k)) (fun n k => L (ix3 p n k)) n := by
  unfold diagV Spec.diag
  rw [colKeep_apply, sumLane_apply]
  rfl

/-- d n = (diagonal + epsilon)^(-1/2). -/
def dV : FVec Ideal S4x256x1 .f32 :=
  rsqrt (addf (diagV R L) (broadcast S4x256x1 (Scalar.ofBits .f32 0x358637BD#32)))

theorem dV_apply (p : Fin 4) (n : Fin 256) :
    dV R L (ix3 p n (0 : Fin 1)) = Spec.dK (fun n k => R (ix3 p n k)) (fun n k => L (ix3 p n k)) n := by
  unfold dV Spec.dK
  rw [rsqrtV_apply, addf_apply, diagV_apply]
  rfl

/-- Σ_n d n * l n k, kept as a one-row array. -/
def dlV : FVec Ideal S4x1x64 .f32 :=
  shapeCast S4x1x64
    (multiReduction .add [1] S4x64 (mulf (broadcastTo S4x256x64 (dV R L) broadcasts_S4x256x1_S4x256x64) L) 0x00000000#32
      reduces_S4x256x64_S4x64 (.inl rfl) rfl)
    shapeCasts_S4x64_S4x1x64

theorem dlV_apply (p : Fin 4) (k : Fin 64) :
    dlV R L (ix3 p (0 : Fin 1) k) = Spec.dl (fun n k => R (ix3 p n k)) (fun n k => L (ix3 p n k)) k := by
  unfold dlV Spec.dl
  rw [rowKeep64_apply, sumRows64_apply]
  refine Finset.sum_congr rfl fun n _ => ?_
  rw [mulf_apply, bcastCol64_apply, dV_apply]

/-- Σ_k r n k * (Σ_n' d n' * l n' k), kept as a one-column array. -/
def rdlV : FVec Ideal S4x256x1 .f32 :=
  shapeCast S4x256x1
    (multiReduction .add [2] S4x256 (mulf R (broadcastTo S4x256x64 (dlV R L) broadcasts_S4x1x64_S4x256x64)) 0x00000000#32
      reduces_S4x256x64_S4x256 (.inl rfl) rfl)
    shapeCasts_S4x256_S4x256x1

theorem rdlV_apply (p : Fin 4) (n : Fin 256) :
    rdlV R L (ix3 p n (0 : Fin 1)) = Spec.rdl (fun n k => R (ix3 p n k)) (fun n k => L (ix3 p n k)) n := by
  unfold rdlV Spec.rdl
  rw [colKeep_apply, sumLane_apply]
  refine Finset.sum_congr rfl fun k _ => ?_
  rw [mulf_apply, bcastRow64_apply, dlV_apply]

/-- The column sums 257 - d n * (…). -/
def colV : FVec Ideal S4x256x1 .f32 :=
  subf (broadcast S4x256x1 (Scalar.ofBits .f32 0x43808000#32)) (mulf (dV R L) (rdlV R L))

theorem colV_apply (p : Fin 4) (n : Fin 256) :
    colV R L (ix3 p n (0 : Fin 1)) = Spec.col (fun n k => R (ix3 p n k)) (fun n k => L (ix3 p n k)) n := by
  unfold colV Spec.col
  rw [subf_apply, mulf_apply, dV_apply, rdlV_apply]
  rfl

/-- The rows of V weighted by the column sums, summed and scaled by 1/256. -/
def featsV (V : FVec Ideal S4x256x2048 .f32) : FVec Ideal S4x1x2048 .f32 :=
  shapeCast S4x1x2048
    (mulf
      (multiReduction .add [1] S4x2048 (mulf (broadcastTo S4x256x2048 (colV R L) broadcasts_S4x256x1_S4x256x2048) V) 0x00000000#32
        reduces_S4x256x2048_S4x2048 (.inl rfl) rfl)
      (broadcast S4x2048 (Scalar.ofBits .f32 0x3B800000#32)))
    shapeCasts_S4x2048_S4x1x2048

theorem featsV_apply (V : FVec Ideal S4x256x2048 .f32) (p : Fin 4) (j : Fin 2048) :
    featsV R L V (ix3 p (0 : Fin 1) j)
      = Spec.featsK (fun n j => V (ix3 p n j)) (fun n k => R (ix3 p n k)) (fun n k => L (ix3 p n k)) j := by
  unfold featsV Spec.featsK
  rw [rowKeep2048_apply, mulf_apply, sumRows2048_apply, broadcast_apply]
  refine congrArg (· * _) (Finset.sum_congr rfl fun n _ => ?_)
  rw [mulf_apply, bcastCol2048_apply, colV_apply]

end Stages

/-- The payload is the composition of the stages. -/
theorem k0_pay1_eq (X0 : Vec Ideal S4x256x2048 .f32) (X1 : Vec Ideal S128x2048 .f32) (X2 : Vec Ideal S1x128 .f32) :
    Gen.k0_pay1 X0 X1 X2 = featsV (rightV (projV X0 X1 X2)) (leftV (projV X0 X1 X2)) X0 := rfl

/-- THE FIRST KERNEL'S PAYLOAD AT (p, 0, j) is the column-sum arrangement of the specification on batch p's rows, with
    the right features from weight rows 0-63 and the left features from weight rows 64-127. -/
theorem feats_pay (X0 : Vec Ideal S4x256x2048 .f32) (X1 : Vec Ideal S128x2048 .f32) (X2 : Vec Ideal S1x128 .f32)
    (p : Fin 4) (j : Fin 2048) :
    Gen.k0_pay1 X0 X1 X2 (ix3 p (0 : Fin 1) j)
      = Spec.featsK (fun n j => X0 (ix3 p n j))
          (Spec.act (fun n j => X0 (ix3 p n j)) (fun k j => X1 (ix2 (⟨k.val, by omega⟩ : Fin 128) j))
            (fun k => X2 (ix2 (0 : Fin 1) (⟨k.val, by omega⟩ : Fin 128))))
          (Spec.act (fun n j => X0 (ix3 p n j)) (fun k j => X1 (ix2 (⟨64 + k.val, by omega⟩ : Fin 128) j))
            (fun k => X2 (ix2 (0 : Fin 1) (⟨64 + k.val, by omega⟩ : Fin 128)))) j := by
  have hr : (fun n k => rightV (projV X0 X1 X2) (ix3 p n k))
      = Spec.act (fun n j => X0 (ix3 p n j)) (fun k j => X1 (ix2 (⟨k.val, by omega⟩ : Fin 128) j))
          (fun k => X2 (ix2 (0 : Fin 1) (⟨k.val, by omega⟩ : Fin 128))) :=
    funext fun n => funext fun k => by
      unfold rightV Spec.act
      rw [sliceLo_apply, projV_apply]
  have hl : (fun n k => leftV (projV X0 X1 X2) (ix3 p n k))
      = Spec.act (fun n j => X0 (ix3 p n j)) (fun k j => X1 (ix2 (⟨64 + k.val, by omega⟩ : Fin 128) j))
          (fun k => X2 (ix2 (0 : Fin 1) (⟨64 + k.val, by omega⟩ : Fin 128))) :=
    funext fun n => funext fun k => by
      unfold leftV Spec.act
      rw [sliceHi_apply, projV_apply]
  rw [k0_pay1_eq, featsV_apply, hr, hl]

end Cert.PayRead

end
-- ==== Proof.RefRead.lean ====
/-
  The reference program, read one element at a time, is the full-matrix arrangement of the specification.

  Every stage of the reference program comes with a lemma reading it at an index from its operands at an index.
  Chaining those lemmas from the result back to the arguments, and naming each composed index by its coordinates,
  gives for each block of the computation (the weight normalisation, the affine layer with relu, the features through
  the full 256 x 256 matrix, and the linear layer with its batch normalisation) exactly the corresponding definition
  of the specification, applied to the arguments read as curried functions of their coordinates.
-/
import proofs.«102167_j37211596653081_2_alg».proof.Proof.Gen.ReferenceIdeal.Read
import proofs.«102167_j37211596653081_2_alg».proof.Proof.Spec

noncomputable section

namespace Cert.RefRead

open Cert.ReferenceIdeal Cert.ReferenceIdeal.Gen Idealize.ShloMosaic Idealize.ShloMosaic.TcCoe Idealize.SL.Sem Idealize.ShloMosaic.StableHlo
open Idealize.ShloMosaic.ValueIdx

/-! ## The weight normalisation -/

/-- The scale of row k, made a column and repeated along the row, is read at k. -/
theorem idx2_3 (k : Fin 64) (j : Fin 2048) : Read.idx_main_v2 (Read.idx_main_v3 (ix2 k j)) = ix1 k :=
  funext fun a => Fin.ext (by match a with | ⟨0, _⟩ => rfl)

/-- Term j' of the sum of squares of row k is the entry (k, j'). -/
theorem idx_call0_v1 (k : Fin 64) (j' : Fin 2048) : Read.idx_main_call0_v1 (ix1 k) j' = ix2 k j' :=
  funext fun a => Fin.ext (by match a with | ⟨0, _⟩ => rfl | ⟨1, _⟩ => rfl)

/-- The right normalised weight at (k, j): the entry times the row's gain over the row's norm. -/
theorem wn_read (x1 : (⟨S64x2048, .f32⟩ : BufTy).Contents (Elt Ideal)) (x2 : (⟨S64, .f32⟩ : BufTy).Contents (Elt Ideal)) (k : Fin 64) (j : Fin 2048) :
    Read.val_main_v4 x1 x2 (ix2 k j) = Spec.wn (fun k j => x1 (ix2 k j)) (fun k => x2 (ix1 k)) k j := by
  rw [Read.val_main_v4_apply, Read.val_main_v3_apply, Read.val_main_v2_apply, idx2_3, Read.val_main_v1_apply,
    Read.val_main_v0_apply, Read.val_main_call0_v1_apply, Read.val_main_call0_cst_apply]
  simp only [Read.val_main_call0_v0_apply, idx_call0_v1, Ideal.mulf_def, Ideal.hostDivf_def, Ideal.hostUnary_sqrt_def,
    Ideal.ofBits_def, Ideal.ofBits_zero_f32, zero_add]
  rfl

/-- The scale of row k, made a column and repeated along the row, is read at k. -/
theorem idx7_8 (k : Fin 64) (j : Fin 2048) : Read.idx_main_v7 (Read.idx_main_v8 (ix2 k j)) = ix1 k :=
  funext fun a => Fin.ext (by match a with | ⟨0, _⟩ => rfl)

/-- Term j' of the sum of squares of row k is the entry (k, j'). -/
theorem idx_call1_v1 (k : Fin 64) (j' : Fin 2048) : Read.idx_main_call1_v1 (ix1 k) j' = ix2 k j' :=
  funext fun a => Fin.ext (by match a with | ⟨0, _⟩ => rfl | ⟨1, _⟩ => rfl)

/-- The left normalised weight at (k, j): the entry times the row's gain over the row's norm. -/
theorem wn_read_left (x4 : (⟨S64x2048, .f32⟩ : BufTy).Contents (Elt Ideal)) (x5 : (⟨S64, .f32⟩ : BufTy).Contents (Elt Ideal)) (k : Fin 64) (j : Fin 2048) :
    Read.val_main_v9 x4 x5 (ix2 k j) = Spec.wn (fun k j => x4 (ix2 k j)) (fun k => x5 (ix1 k)) k j := by
  rw [Read.val_main_v9_apply, Read.val_main_v8_apply, Read.val_main_v7_apply, idx7_8, Read.val_main_v6_apply,
    Read.val_main_v5_apply, Read.val_main_call1_v1_apply, Read.val_main_call1_cst_apply]
  simp only [Read.val_main_call1_v0_apply, idx_call1_v1, Ideal.mulf_def, Ideal.hostDivf_def, Ideal.hostUnary_sqrt_def,
    Ideal.ofBits_def, Ideal.ofBits_zero_f32, zero_add]
  rfl

/-! ## The affine layer with relu -/

/-- The left factor of the layer's product at (B, n, k), term j, is the input (B, n, j). -/
theorem lidx10 (B : Fin 64) (n : Fin 256) (k : Fin 64) (j : Fin 2048) : Read.lidx_main_v10 (ix3 B n k) j = ix3 B n j :=
  funext fun a => Fin.ext (by match a with | ⟨0, _⟩ => rfl | ⟨1, _⟩ => rfl | ⟨2, _⟩ => rfl)

/-- The right factor is the weight (k, j). -/
theorem ridx10 (B : Fin 64) (n : Fin 256) (k : Fin 64) (j : Fin 2048) : Read.ridx_main_v10 (ix3 B n k) j = ix2 k j :=
  funext fun a => Fin.ext (by match a with | ⟨0, _⟩ => rfl | ⟨1, _⟩ => rfl)

/-- The bias, repeated along batches and rows, is read at k. -/
theorem idx11_12 (B : Fin 64) (n : Fin 256) (k : Fin 64) :
    Read.idx_main_v11 (Read.idx_main_v12 (ix3 B n k)) = ix1 k :=
  funext fun a => Fin.ext (by match a with | ⟨0, _⟩ => rfl)

/-- The right feature at (B, n, k): the affine layer on row n of batch B, then the maximum with zero. -/
theorem act_read (x0 : (⟨S64x256x2048, .f32⟩ : BufTy).Contents (Elt Ideal)) (x1 : (⟨S64x2048, .f32⟩ : BufTy).Contents (Elt Ideal)) (x2 x3 : (⟨S64, .f32⟩ : BufTy).Contents (Elt Ideal)) (B : Fin 64) (n : Fin 256) (k : Fin 64) :
    Read.val_main_v14 x0 x1 x2 x3 (ix3 B n k)
      = Spec.act (fun n j => x0 (ix3 B n j)) (fun k j => Read.val_main_v4 x1 x2 (ix2 k j)) (fun k => x3 (ix1 k)) n k := by
  rw [Read.val_main_v14_apply, Read.val_main_v13_apply, Read.val_main_v10_apply, Read.val_main_v12_apply,
    Read.val_main_v11_apply, idx11_12, Read.val_main_call2_v0_apply, Read.val_main_call2_cst_apply]
  simp only [lidx10, ridx10, Ideal.maximumf_def, Ideal.addf_def, Ideal.ofBits_def, Ideal.ofBits_zero_f32]
  rfl

/-- The left factor of the layer's product at (B, n, k), term j, is the input (B, n, j). -/
theorem lidx15 (B : Fin 64) (n : Fin 256) (k : Fin 64) (j : Fin 2048) : Read.lidx_main_v15 (ix3 B n k) j = ix3 B n j :=
  funext fun a => Fin.ext (by match a with | ⟨0, _⟩ => rfl | ⟨1, _⟩ => rfl | ⟨2, _⟩ => rfl)

/-- The right factor is the weight (k, j). -/
theorem ridx15 (B : Fin 64) (n : Fin 256) (k : Fin 64) (j : Fin 2048) : Read.ridx_main_v15 (ix3 B n k) j = ix2 k j :=
  funext fun a => Fin.ext (by match a with | ⟨0, _⟩ => rfl | ⟨1, _⟩ => rfl)

/-- The bias, repeated along batches and rows, is read at k. -/
theorem idx16_17 (B : Fin 64) (n : Fin 256) (k : Fin 64) :
    Read.idx_main_v16 (Read.idx_main_v17 (ix3 B n k)) = ix1 k :=
  funext fun a => Fin.ext (by match a with | ⟨0, _⟩ => rfl)

/-- The left feature at (B, n, k): the affine layer on row n of batch B, then the maximum with zero. -/
theorem act_read_left (x0 : (⟨S64x256x2048, .f32⟩ : BufTy).Contents (Elt Ideal)) (x4 : (⟨S64x2048, .f32⟩ : BufTy).Contents (Elt Ideal)) (x5 x6 : (⟨S64, .f32⟩ : BufTy).Contents (Elt Ideal)) (B : Fin 64) (n : Fin 256) (k : Fin 64) :
    Read.val_main_v19 x0 x4 x5 x6 (ix3 B n k)
      = Spec.act (fun n j => x0 (ix3 B n j)) (fun k j => Read.val_main_v9 x4 x5 (ix2 k j)) (fun k => x6 (ix1 k)) n k := by
  rw [Read.val_main_v19_apply, Read.val_main_v18_apply, Read.val_main_v15_apply, Read.val_main_v17_apply,
    Read.val_main_v16_apply, idx16_17, Read.val_main_call3_v0_apply, Read.val_main_call3_cst_apply]
  simp only [lidx15, ridx15, Ideal.maximumf_def, Ideal.addf_def, Ideal.ofBits_def, Ideal.ofBits_zero_f32]
  rfl

/-! ## The features through the full 256 x 256 matrix -/

section words

/-- Two row or column numbers below 256 written as 32-bit words are the same word only when they are the same number. -/
theorem ofNat_inj_256 (n m : Fin 256) : BitVec.ofNat 32 n.val = BitVec.ofNat 32 m.val ↔ n = m := by
  constructor
  · intro h
    have h' := congrArg BitVec.toNat h
    rw [BitVec.toNat_ofNat, BitVec.toNat_ofNat] at h'
    have hn := n.isLt
    have hm := m.isLt
    exact Fin.ext (by omega)
  · intro h
    rw [h]

/-- The mask bit at (n, m) is one exactly on the diagonal, so a choice on it is the choice on n = m. -/
theorem select_mask {α : Type} (n m : Fin 256) (A B : α) :
    Scalar.select (IntOp.cmpi .eq (BitVec.ofNat 32 n.val) (BitVec.ofNat 32 m.val)) A B = if n = m then A else B := by
  unfold Scalar.select
  by_cases h : n = m
  · rw [if_pos h]
    exact if_pos (IntOp.cmpi_eq.mpr ((ofNat_inj_256 n m).mpr h))
  · rw [if_neg h]
    exact if_neg (fun hc => h ((ofNat_inj_256 n m).mp (IntOp.cmpi_eq.mp hc)))

/-- The identity matrix's entry (n, m), a compare bit read as a number, is one on the diagonal and zero off it. -/
theorem eye_entry (n m : Fin 256) :
    FloatOps.uitofp (F := Ideal) .f32 (IntOp.cmpi .eq (IntOp.addi (BitVec.ofNat 32 n.val) 0#32) (BitVec.ofNat 32 m.val))
      = if n = m then (1 : EReal) else 0 := by
  have hadd : IntOp.addi (BitVec.ofNat 32 n.val) 0#32 = BitVec.ofNat 32 n.val := by
    unfold IntOp.addi
    exact BitVec.add_zero _
  rw [hadd]
  by_cases h : n = m
  · rw [if_pos h, IntOp.cmpi_eq.mpr ((ofNat_inj_256 n m).mpr h)]
    show (((1#1 : BitVec 1).toNat : ℝ) : EReal) = 1
    norm_num
  · rw [if_neg h, eq_zero_of_ne_one (fun hc => h ((ofNat_inj_256 n m).mp (IntOp.cmpi_eq.mp hc)))]
    show (((0#1 : BitVec 1).toNat : ℝ) : EReal) = 0
    norm_num

end words

section feats

variable (x0 : (⟨S64x256x2048, .f32⟩ : BufTy).Contents (Elt Ideal)) (x1 : (⟨S64x2048, .f32⟩ : BufTy).Contents (Elt Ideal)) (x2 x3 : (⟨S64, .f32⟩ : BufTy).Contents (Elt Ideal)) (x4 : (⟨S64x2048, .f32⟩ : BufTy).Contents (Elt Ideal)) (x5 x6 : (⟨S64, .f32⟩ : BufTy).Contents (Elt Ideal))

/-- The factors of the product of features at (B, n, m), term k: the left feature (B, n, k) and the right (B, m, k). -/
theorem lidx20 (B : Fin 64) (n m : Fin 256) (k : Fin 64) : Read.lidx_main_v20 (ix3 B n m) k = ix3 B n k :=
  funext fun a => Fin.ext (by match a with | ⟨0, _⟩ => rfl | ⟨1, _⟩ => rfl | ⟨2, _⟩ => rfl)
theorem ridx20 (B : Fin 64) (n m : Fin 256) (k : Fin 64) : Read.ridx_main_v20 (ix3 B n m) k = ix3 B m k :=
  funext fun a => Fin.ext (by match a with | ⟨0, _⟩ => rfl | ⟨1, _⟩ => rfl | ⟨2, _⟩ => rfl)

/-- u n m in batch B. -/
theorem unc_read (B : Fin 64) (n m : Fin 256) :
    Read.val_main_v20 x0 x1 x2 x3 x4 x5 x6 (ix3 B n m) = Spec.unc (fun n k => Read.val_main_v14 x0 x1 x2 x3 (ix3 B n k)) (fun n k => Read.val_main_v19 x0 x4 x5 x6 (ix3 B n k)) n m := by
  rw [Read.val_main_v20_apply]
  simp only [lidx20, ridx20]
  rfl

/-- u kept on the diagonal, zero off it. -/
theorem sel_read (B : Fin 64) (n m : Fin 256) :
    Read.val_main_v26 x0 x1 x2 x3 x4 x5 x6 (ix3 B n m) = if n = m then Spec.unc (fun n k => Read.val_main_v14 x0 x1 x2 x3 (ix3 B n k)) (fun n k => Read.val_main_v19 x0 x4 x5 x6 (ix3 B n k)) n m else 0 := by
  rw [Read.val_main_v26_apply, Read.val_main_v24_apply, Read.val_main_v23_apply, Read.val_main_v21_apply,
    Read.val_main_v22_apply, Read.val_main_v25_apply, Read.val_main_cst_apply, unc_read, Ideal.ofBits_def,
    Ideal.ofBits_zero_f32]
  exact select_mask n m _ _

/-- Term n of the sum over rows at (B, m) is the entry (B, n, m). -/
theorem idx27 (B : Fin 64) (m n : Fin 256) : Read.idx_main_v27 (ix2 B m) n = ix3 B n m :=
  funext fun a => Fin.ext (by match a with | ⟨0, _⟩ => rfl | ⟨1, _⟩ => rfl | ⟨2, _⟩ => rfl)

/-- The diagonal u m m, taken through the mask. -/
theorem diag_read (B : Fin 64) (m : Fin 256) :
    Read.val_main_v27 x0 x1 x2 x3 x4 x5 x6 (ix2 B m) = Spec.diagR (fun n k => Read.val_main_v14 x0 x1 x2 x3 (ix3 B n k)) (fun n k => Read.val_main_v19 x0 x4 x5 x6 (ix3 B n k)) m := by
  rw [Read.val_main_v27_apply, Read.val_main_cst_0_apply]
  simp only [idx27, sel_read, Ideal.ofBits_def, Ideal.ofBits_zero_f32, zero_add]
  rfl

/-- d m = (u m m + ε)^(-1/2). -/
theorem d_read (B : Fin 64) (m : Fin 256) :
    Read.val_main_v30 x0 x1 x2 x3 x4 x5 x6 (ix2 B m) = Spec.dR (fun n k => Read.val_main_v14 x0 x1 x2 x3 (ix3 B n k)) (fun n k => Read.val_main_v19 x0 x4 x5 x6 (ix3 B n k)) m := by
  rw [Read.val_main_v30_apply, Read.val_main_v29_apply, diag_read, Read.val_main_v28_apply, Read.val_main_cst_1_apply]
  rfl

/-- d repeated along the rows is read at the column m; repeated along the columns, at the row n. -/
theorem idx31_32 (B : Fin 64) (n m : Fin 256) : Read.idx_main_v31 (Read.idx_main_v32 (ix3 B n m)) = ix2 B m :=
  funext fun a => Fin.ext (by match a with | ⟨0, _⟩ => rfl | ⟨1, _⟩ => rfl)
theorem idx34_35 (B : Fin 64) (n m : Fin 256) : Read.idx_main_v34 (Read.idx_main_v35 (ix3 B n m)) = ix2 B n :=
  funext fun a => Fin.ext (by match a with | ⟨0, _⟩ => rfl | ⟨1, _⟩ => rfl)

/-- (d m * u n m) * d n. -/
theorem dud_read (B : Fin 64) (n m : Fin 256) :
    Read.val_main_v36 x0 x1 x2 x3 x4 x5 x6 (ix3 B n m)
      = (Spec.dR (fun n k => Read.val_main_v14 x0 x1 x2 x3 (ix3 B n k)) (fun n k => Read.val_main_v19 x0 x4 x5 x6 (ix3 B n k)) m * Spec.unc (fun n k => Read.val_main_v14 x0 x1 x2 x3 (ix3 B n k)) (fun n k => Read.val_main_v19 x0 x4 x5 x6 (ix3 B n k)) n m) * Spec.dR (fun n k => Read.val_main_v14 x0 x1 x2 x3 (ix3 B n k)) (fun n k => Read.val_main_v19 x0 x4 x5 x6 (ix3 B n k)) n := by
  rw [Read.val_main_v36_apply, Read.val_main_v33_apply, Read.val_main_v32_apply, Read.val_main_v31_apply, idx31_32,
    d_read, unc_read, Read.val_main_v35_apply, Read.val_main_v34_apply, idx34_35, d_read]
  rfl

/-- 1 + [n = m]. -/
theorem eye_read (B : Fin 64) (n m : Fin 256) :
    Read.val_main_v46 (F := Ideal) (ix3 B n m) = Ideal.ofBits .f32 0x3F800000#32 + (if n = m then (1 : EReal) else 0) := by
  rw [Read.val_main_v46_apply, Read.val_main_v45_apply, Read.val_main_v44_apply, Read.val_main_v43_apply,
    Read.val_main_cst_2_apply, Read.val_main_v42_apply, Read.val_main_v41_apply, Read.val_main_v40_apply,
    Read.val_main_v37_apply, Read.val_main_v39_apply, Read.val_main_c_apply, Read.val_main_v38_apply]
  exact congrArg (Ideal.ofBits .f32 0x3F800000#32 + ·) (eye_entry n m)

/-- M n m. -/
theorem M_read (B : Fin 64) (n m : Fin 256) :
    Read.val_main_v47 x0 x1 x2 x3 x4 x5 x6 (ix3 B n m) = Spec.Mfull (fun n k => Read.val_main_v14 x0 x1 x2 x3 (ix3 B n k)) (fun n k => Read.val_main_v19 x0 x4 x5 x6 (ix3 B n k)) n m := by
  rw [Read.val_main_v47_apply, eye_read, dud_read]
  rfl

/-- The factors of M · V at (B, n, j), term m: M (n, m) and the input (B, m, j); term n of the sum over rows at (B, j). -/
theorem lidx48 (B : Fin 64) (n : Fin 256) (j : Fin 2048) (m : Fin 256) : Read.lidx_main_v48 (ix3 B n j) m = ix3 B n m :=
  funext fun a => Fin.ext (by match a with | ⟨0, _⟩ => rfl | ⟨1, _⟩ => rfl | ⟨2, _⟩ => rfl)
theorem ridx48 (B : Fin 64) (n : Fin 256) (j : Fin 2048) (m : Fin 256) : Read.ridx_main_v48 (ix3 B n j) m = ix3 B m j :=
  funext fun a => Fin.ext (by match a with | ⟨0, _⟩ => rfl | ⟨1, _⟩ => rfl | ⟨2, _⟩ => rfl)
theorem idx49 (B : Fin 64) (j : Fin 2048) (n : Fin 256) : Read.idx_main_v49 (ix2 B j) n = ix3 B n j :=
  funext fun a => Fin.ext (by match a with | ⟨0, _⟩ => rfl | ⟨1, _⟩ => rfl | ⟨2, _⟩ => rfl)

/-- The features of batch B at j: the sum over n and m of M n m * V m j, over 256. -/
theorem feats_read (B : Fin 64) (j : Fin 2048) :
    Read.val_main_v51 x0 x1 x2 x3 x4 x5 x6 (ix2 B j)
      = Spec.featsR (fun n j => x0 (ix3 B n j)) (fun n k => Read.val_main_v14 x0 x1 x2 x3 (ix3 B n k)) (fun n k => Read.val_main_v19 x0 x4 x5 x6 (ix3 B n k)) j := by
  rw [Read.val_main_v51_apply, Read.val_main_v49_apply, Read.val_main_cst_3_apply, Read.val_main_v50_apply,
    Read.val_main_cst_4_apply]
  simp only [idx49, Read.val_main_v48_apply, lidx48, ridx48, M_read, Ideal.hostDivf_def, Ideal.ofBits_def,
    Ideal.ofBits_zero_f32, zero_add]
  rfl

end feats

/-! ## The tail: a linear layer, then a batch normalisation over the 64 batches -/

section tail

variable (x0 : (⟨S64x256x2048, .f32⟩ : BufTy).Contents (Elt Ideal)) (x1 : (⟨S64x2048, .f32⟩ : BufTy).Contents (Elt Ideal))
  (x2 x3 : (⟨S64, .f32⟩ : BufTy).Contents (Elt Ideal)) (x4 : (⟨S64x2048, .f32⟩ : BufTy).Contents (Elt Ideal))
  (x5 x6 : (⟨S64, .f32⟩ : BufTy).Contents (Elt Ideal)) (x7 : (⟨S1024x2048, .f32⟩ : BufTy).Contents (Elt Ideal))
  (x8 x9 x10 : (⟨S1024, .f32⟩ : BufTy).Contents (Elt Ideal))

/-- The left factor of the linear layer's product at (b, e), term k, is the feature (b, k). -/
theorem lidx53 (b : Fin 64) (e : Fin 1024) (k : Fin 2048) : Read.lidx_main_v53 (ix2 b e) k = ix2 b k :=
  funext fun a => Fin.ext (by match a with | ⟨0, _⟩ => rfl | ⟨1, _⟩ => rfl)

/-- The right factor, read through the transposition, is the weight (e, k). -/
theorem ridx53 (b : Fin 64) (e : Fin 1024) (k : Fin 2048) :
    Read.idx_main_v52 (Read.ridx_main_v53 (ix2 b e) k) = ix2 e k :=
  funext fun a => Fin.ext (by match a with | ⟨0, _⟩ => rfl | ⟨1, _⟩ => rfl)

/-! A vector over e, made a row and repeated along the 64 batches, is read at e: one equation per such pair of stages. -/
theorem idx54_55 (b : Fin 64) (e : Fin 1024) : Read.idx_main_v54 (Read.idx_main_v55 (ix2 b e)) = ix1 e :=
  funext fun a => Fin.ext (by match a with | ⟨0, _⟩ => rfl)
theorem idx60_61 (b : Fin 64) (e : Fin 1024) : Read.idx_main_v60 (Read.idx_main_v61 (ix2 b e)) = ix1 e :=
  funext fun a => Fin.ext (by match a with | ⟨0, _⟩ => rfl)
theorem idx67_68 (b : Fin 64) (e : Fin 1024) : Read.idx_main_v67 (Read.idx_main_v68 (ix2 b e)) = ix1 e :=
  funext fun a => Fin.ext (by match a with | ⟨0, _⟩ => rfl)
theorem idx70_71 (b : Fin 64) (e : Fin 1024) : Read.idx_main_v70 (Read.idx_main_v71 (ix2 b e)) = ix1 e :=
  funext fun a => Fin.ext (by match a with | ⟨0, _⟩ => rfl)
theorem idx76_77 (b : Fin 64) (e : Fin 1024) : Read.idx_main_v76 (Read.idx_main_v77 (ix2 b e)) = ix1 e :=
  funext fun a => Fin.ext (by match a with | ⟨0, _⟩ => rfl)
theorem idx79_80 (b : Fin 64) (e : Fin 1024) : Read.idx_main_v79 (Read.idx_main_v80 (ix2 b e)) = ix1 e :=
  funext fun a => Fin.ext (by match a with | ⟨0, _⟩ => rfl)

/-- Term k of a sum over the batches at e is the entry (k, e). -/
theorem idx57 (e : Fin 1024) (k : Fin 64) : Read.idx_main_v57 (ix1 e) k = ix2 k e :=
  funext fun a => Fin.ext (by match a with | ⟨0, _⟩ => rfl | ⟨1, _⟩ => rfl)
theorem idx64 (e : Fin 1024) (k : Fin 64) : Read.idx_main_v64 (ix1 e) k = ix2 k e :=
  funext fun a => Fin.ext (by match a with | ⟨0, _⟩ => rfl | ⟨1, _⟩ => rfl)

/-- The linear layer at (b, e). -/
theorem lin_read (b : Fin 64) (e : Fin 1024) :
    Read.val_main_v56 x0 x1 x2 x3 x4 x5 x6 x7 x8 (ix2 b e)
      = Spec.lin (fun b j => Read.val_main_v51 x0 x1 x2 x3 x4 x5 x6 (ix2 b j)) (fun e j => x7 (ix2 e j))
          (fun e => x8 (ix1 e)) b e := by
  rw [Read.val_main_v56_apply, Read.val_main_v53_apply, Read.val_main_v55_apply, Read.val_main_v54_apply]
  simp only [Read.val_main_v52_apply, lidx53, ridx53, idx54_55, Ideal.addf_def]
  rfl

/-- The batch mean at e. -/
theorem mu_read (e : Fin 1024) :
    Read.val_main_v59 x0 x1 x2 x3 x4 x5 x6 x7 x8 (ix1 e)
      = Spec.mu (Spec.lin (fun b j => Read.val_main_v51 x0 x1 x2 x3 x4 x5 x6 (ix2 b j)) (fun e j => x7 (ix2 e j))
          (fun e => x8 (ix1 e))) e := by
  rw [Read.val_main_v59_apply, Read.val_main_v57_apply, Read.val_main_v58_apply, Read.val_main_cst_5_apply,
    Read.val_main_cst_6_apply]
  simp only [idx57, lin_read, Ideal.hostDivf_def, Ideal.ofBits_def, Ideal.ofBits_zero_f32, zero_add]
  rfl

/-- The batch variance at e. -/
theorem var_read (e : Fin 1024) :
    Read.val_main_v66 x0 x1 x2 x3 x4 x5 x6 x7 x8 (ix1 e)
      = Spec.var (Spec.lin (fun b j => Read.val_main_v51 x0 x1 x2 x3 x4 x5 x6 (ix2 b j)) (fun e j => x7 (ix2 e j))
          (fun e => x8 (ix1 e))) e := by
  rw [Read.val_main_v66_apply, Read.val_main_v64_apply, Read.val_main_v65_apply, Read.val_main_cst_7_apply,
    Read.val_main_cst_8_apply]
  simp only [idx64, Read.val_main_v63_apply, Read.val_main_v62_apply, Read.val_main_v61_apply, Read.val_main_v60_apply,
    idx60_61, lin_read, mu_read, Ideal.hostDivf_def, Ideal.mulf_def, Ideal.subf_def, Ideal.ofBits_def,
    Ideal.ofBits_zero_f32, zero_add]
  rfl

/-- The reference's result at (b, e) is the tail of the specification applied to its features. -/
theorem tail_read (b : Fin 64) (e : Fin 1024) :
    Read.val_main_v81 x0 x1 x2 x3 x4 x5 x6 x7 x8 x9 x10 (ix2 b e)
      = Spec.tail (fun b j => Read.val_main_v51 x0 x1 x2 x3 x4 x5 x6 (ix2 b j)) (fun e j => x7 (ix2 e j))
          (fun e => x8 (ix1 e)) (fun e => x9 (ix1 e)) (fun e => x10 (ix1 e)) b e := by
  rw [Read.val_main_v81_apply, Read.val_main_v78_apply, Read.val_main_v72_apply, Read.val_main_v71_apply,
    Read.val_main_v70_apply, Read.val_main_v69_apply, Read.val_main_v68_apply, Read.val_main_v67_apply,
    Read.val_main_v77_apply, Read.val_main_v76_apply, Read.val_main_v75_apply, Read.val_main_v74_apply,
    Read.val_main_v73_apply, Read.val_main_cst_9_apply, Read.val_main_v80_apply, Read.val_main_v79_apply]
  simp only [idx67_68, idx70_71, idx76_77, idx79_80, lin_read, mu_read, var_read, Ideal.addf_def, Ideal.mulf_def,
    Ideal.subf_def, Ideal.hostUnary_rsqrt_def, Ideal.ofBits_def]
  rfl

end tail

end Cert.RefRead

end
-- ==== Proof.Result.lean ====
/-
  The one function both programs compute, over the eleven argument arrays.

  Batch b's feature row is the column-sum arrangement applied to the batch's 256 x 2048 matrix and its two
  feature matrices (an affine layer with weight-normalised rows, then relu); the 64 feature rows then go
  through the shared tail (a linear layer and a batch normalisation over the batches).
-/
import proofs.«102167_j37211596653081_2_alg».proof.Proof.Spec
import Idealize.ShloMosaic.Lib.ValueIdx

noncomputable section

namespace Cert.Result

open Idealize.ShloMosaic Idealize.ShloMosaic.ValueIdx

/-- Batch b of the 64 x 256 x 2048 array as a 256 x 2048 matrix. -/
def batch (x0 : (⟨3, ![64, 256, 2048]⟩ : Shape).Idx → EReal) (b : Fin 64) : Fin 256 → Fin 2048 → EReal :=
  fun n j => x0 (ix3 b n j)

/-- A weight-normalised 64 x 2048 matrix from its raw rows and its gains. -/
def weights (x1 : (⟨2, ![64, 2048]⟩ : Shape).Idx → EReal) (x2 : (⟨1, ![64]⟩ : Shape).Idx → EReal) : Fin 64 → Fin 2048 → EReal :=
  Spec.wn (fun k j => x1 (ix2 k j)) (fun k => x2 (ix1 k))

/-- Batch b's feature row in the column-sum arrangement. -/
def feats (x0 : (⟨3, ![64, 256, 2048]⟩ : Shape).Idx → EReal)
    (x1 : (⟨2, ![64, 2048]⟩ : Shape).Idx → EReal) (x2 x3 : (⟨1, ![64]⟩ : Shape).Idx → EReal)
    (x4 : (⟨2, ![64, 2048]⟩ : Shape).Idx → EReal) (x5 x6 : (⟨1, ![64]⟩ : Shape).Idx → EReal)
    (b : Fin 64) (j : Fin 2048) : EReal :=
  Spec.featsK (batch x0 b) (Spec.act (batch x0 b) (weights x1 x2) (fun k => x3 (ix1 k)))
    (Spec.act (batch x0 b) (weights x4 x5) (fun k => x6 (ix1 k))) j

/-- The result array. -/
def result (x0 : (⟨3, ![64, 256, 2048]⟩ : Shape).Idx → EReal)
    (x1 : (⟨2, ![64, 2048]⟩ : Shape).Idx → EReal) (x2 x3 : (⟨1, ![64]⟩ : Shape).Idx → EReal)
    (x4 : (⟨2, ![64, 2048]⟩ : Shape).Idx → EReal) (x5 x6 : (⟨1, ![64]⟩ : Shape).Idx → EReal)
    (x7 : (⟨2, ![1024, 2048]⟩ : Shape).Idx → EReal) (x8 x9 x10 : (⟨1, ![1024]⟩ : Shape).Idx → EReal) :
    (⟨2, ![64, 1024]⟩ : Shape).Idx → EReal :=
  fun i => Spec.tail (feats x0 x1 x2 x3 x4 x5 x6) (fun e j => x7 (ix2 e j)) (fun e => x8 (ix1 e)) (fun e => x9 (ix1 e))
    (fun e => x10 (ix1 e)) (i 0) (i 1)

end Cert.Result

end
-- ==== Proof.KernelValue.lean ====
/-
  The idealized kernel computes the shared function.

  The result array is the second launch's arithmetic on its five operand arrays; read at an index that is
  the shared tail of the first launch's output rows. Row b of that output is the first launch's arithmetic
  on the four-batch group holding b, at b's place in the group, which is the column-sum arrangement on batch
  b, with the two halves of the stacked weight matrix and of the stacked bias row as the two layers'
  parameters.
-/
import proofs.«102167_j37211596653081_2_alg».proof.Proof.Blocks0
import proofs.«102167_j37211596653081_2_alg».proof.Proof.Blocks1
import proofs.«102167_j37211596653081_2_alg».proof.Proof.HostVals
import proofs.«102167_j37211596653081_2_alg».proof.Proof.PayTail
import proofs.«102167_j37211596653081_2_alg».proof.Proof.PayFeats
import proofs.«102167_j37211596653081_2_alg».proof.Proof.RefRead
import proofs.«102167_j37211596653081_2_alg».proof.Proof.Result

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-- The host's weight normalisation read at an index. -/
theorem wnormK_read (a1 : FVec Ideal S64x2048 .f32) (a2 : FVec Ideal S64 .f32) :
    (fun k j => wnormK a1 a2 (ix2 k j)) = Cert.Result.weights a1 a2 :=
  funext fun k => funext fun j => Cert.RefRead.wn_read a1 a2 k j

/-- The first launch's output at an index whose batch is in group q, at the place y of the group. -/
theorem feats0_apply {F : FTy → Type} [FloatOps F] (A0 : S64x256x2048.Idx → Elt F .f32) (A1 : S128x2048.Idx → Elt F .f32) (A2 : S1x128.Idx → Elt F .f32)
    (i : S64x1x2048.Idx) (q : Fin 16) (y : S4x1x2048.Idx) (hq : (i 0).val / 4 = q.val) (h0 : (i 0).val % 4 = (y 0).val)
    (h1 : (i 1).val = (y 1).val) (h2 : (i 2).val = (y 2).val) :
    feats0 A0 A1 A2 i = k0_pay1 (rows4 A0 q) A1 A2 y := by
  unfold feats0
  have e1 : (⟨(i 0).val / 4, by have h : (i 0).val < 64 := (i 0).isLt; omega⟩ : Fin 16) = q := Fin.ext hq
  have e2 : (ix3 (⟨(i 0).val % 4, Nat.mod_lt _ (by decide)⟩ : Fin 4) (⟨(i 1).val, (i 1).isLt⟩ : Fin 1) (⟨(i 2).val, (i 2).isLt⟩ : Fin 2048) : S4x1x2048.Idx) = y := by
    funext a
    apply Fin.ext
    match a with
    | ⟨0, _⟩ => exact h0
    | ⟨1, _⟩ => exact h1
    | ⟨2, _⟩ => exact h2
  rw [e1, e2]

/-- A batch read out of its group of four. -/
theorem rows4_batch (A0 : S64x256x2048.Idx → EReal) (b : Fin 64) :
    (fun (n : Fin 256) (j : Fin 2048) => rows4 (F := Ideal) A0 ⟨b.val / 4, by have := b.isLt; omega⟩ (ix3 (⟨b.val % 4, Nat.mod_lt _ (by decide)⟩ : Fin 4) n j))
      = fun n j => A0 (ix3 b n j) := by
  funext n j
  unfold rows4
  congr 1
  funext a
  apply Fin.ext
  match a with
  | ⟨0, _⟩ => show 4 * (b.val / 4) + b.val % 4 = b.val; omega
  | ⟨1, _⟩ => rfl
  | ⟨2, _⟩ => rfl

/-- Row b of the first launch's output, in the column-sum arrangement on batch b. -/
theorem feats0_read (A0 : S64x256x2048.Idx → EReal) (A1 : S128x2048.Idx → EReal) (A2 : S1x128.Idx → EReal)
    (b : Fin 64) (j : Fin 2048) :
    feats0 (F := Ideal) A0 A1 A2 (ix3 b (0 : Fin 1) j)
      = Spec.featsK (fun n j => A0 (ix3 b n j))
          (Spec.act (fun n j => A0 (ix3 b n j)) (fun k j => A1 (ix2 (⟨k.val, by omega⟩ : Fin 128) j)) (fun k => A2 (ix2 (0 : Fin 1) (⟨k.val, by omega⟩ : Fin 128))))
          (Spec.act (fun n j => A0 (ix3 b n j)) (fun k j => A1 (ix2 (⟨64 + k.val, by omega⟩ : Fin 128) j)) (fun k => A2 (ix2 (0 : Fin 1) (⟨64 + k.val, by omega⟩ : Fin 128)))) j := by
  refine (feats0_apply (F := Ideal) A0 A1 A2 (ix3 b (0 : Fin 1) j) ⟨b.val / 4, by have := b.isLt; omega⟩
    (ix3 (⟨b.val % 4, Nat.mod_lt _ (by decide)⟩ : Fin 4) (0 : Fin 1) j) rfl rfl rfl rfl).trans ?_
  refine (Cert.PayRead.feats_pay (rows4 (F := Ideal) A0 ⟨b.val / 4, by have := b.isLt; omega⟩) A1 A2 (⟨b.val % 4, Nat.mod_lt _ (by decide)⟩ : Fin 4) j).trans ?_
  rw [rows4_batch A0 b]

variable (m : (ℓ : Loc nD τ sig) → Buf (Elt Ideal) ℓ) (ρ : Dev nD → PrngReg)

/-- The rows of the first launch's output array, as the second launch finds them, are the shared feature rows. -/
theorem feats_kernel (c : Dev nD) :
    (fun (b : Fin 64) (j : Fin 2048) => (V6 m ρ c main_v14 : S64x2048.Idx → EReal) (ix2 b j))
      = Cert.Result.feats (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext b j
  rw [V6_v14, drop_apply, final0, feats0_read, V4_arg0, V4_v10, V4_v12]
  simp only [stackW_upper, stackW_lower, stackB_first, stackB_second]
  rw [wnormK_read, wnormK_read]
  rfl

/-- The result array after the run is the shared result function of the argument arrays. -/
theorem kernel_final (c : Dev nD) :
    ((dat1 (V6 m ρ) c).arrAt 5 cfg1.N : S64x1024.Idx → EReal)
      = Cert.Result.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  rw [final1]
  funext i
  obtain ⟨b, e, rfl⟩ : ∃ (b : Fin 64) (e : Fin 1024), i = ix2 b e := ⟨i 0, i 1, eq_ix2 i⟩
  refine (Cert.PayRead.tail_pay (V6 m ρ c main_v14) (V6 m ρ c main_arg7) (V6 m ρ c main_v15) (V6 m ρ c main_v16) (V6 m ρ c main_v17) b e).trans ?_
  rw [feats_kernel, V6_arg7, V6_v15, V6_v16, V6_v17]
  simp only [row_apply]
  rfl

end Cert.KernelIdeal.Hand

end
-- ==== Proof.Algebra.lean ====
/-
  The algebra behind the two arrangements: the five literal words as reals, the affine layer with relu and
  the weight normalisation on real entries, and the law that the column-sum arrangement and the full-matrix
  arrangement agree on real entries with non-negative features.
-/
import proofs.«102167_j37211596653081_2_alg».proof.Proof.Spec

noncomputable section

namespace Cert.Algebra

open Idealize.ShloMosaic

/-! ## The literal words -/

/-- 257 = (2^23 + 2^15) * 2^(-15). -/
theorem ofBits_257 : Ideal.ofBits .f32 0x43808000#32 = ((257 : ℝ) : EReal) := by
  simp [Ideal.ofBits, Ideal.ieee, -EReal.coe_mul]; norm_num

/-- 256 = 2^23 * 2^(-15). -/
theorem ofBits_256 : Ideal.ofBits .f32 0x43800000#32 = ((256 : ℝ) : EReal) := by
  simp [Ideal.ofBits, Ideal.ieee, -EReal.coe_mul]; norm_num

/-- 1/256 = 2^23 * 2^(-31). -/
theorem ofBits_inv256 : Ideal.ofBits .f32 0x3B800000#32 = ((1 / 256 : ℝ) : EReal) := by
  simp [Ideal.ofBits, Ideal.ieee, -EReal.coe_mul]; norm_num

/-- 1 = 2^23 * 2^(-23). -/
theorem ofBits_one : Ideal.ofBits .f32 0x3F800000#32 = 1 := by
  simp [Ideal.ofBits, Ideal.ieee, -EReal.coe_mul]; norm_num

/-- The small word is a positive normal number, (2^23 + 407485) * 2^(-43). -/
theorem ofBits_eps : ∃ ε : ℝ, 0 < ε ∧ Ideal.ofBits .f32 0x358637BD#32 = (ε : EReal) := by
  have h : Ideal.ofBits .f32 0x358637BD#32 = ((8796093 * (2 : ℝ) ^ (-43 : ℤ) : ℝ) : EReal) := by
    simp [Ideal.ofBits, Ideal.ieee, -EReal.coe_mul]
  exact ⟨_, by positivity, h⟩

/-! ## Coercion of finite sums -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with a choice between two reals. -/
theorem coe_ite (c : Prop) [Decidable c] (a b : ℝ) :
    ((if c then a else b : ℝ) : EReal) = if c then (a : EReal) else (b : EReal) := by
  split_ifs <;> rfl

/-- The reciprocal square root of a positive real is the real reciprocal of its real square root. -/
theorem rsqrt_pos {x : ℝ} (h : 0 < x) : Ideal.rsqrt (x : EReal) = (((Real.sqrt x)⁻¹ : ℝ) : EReal) := by
  rw [Ideal.rsqrt_coe, if_neg (not_lt.2 h.le), if_neg h.ne']

/-! ## The affine layer with relu, on real entries -/

theorem act_real (V : Fin 256 → Fin 2048 → ℝ) (W : Fin 64 → Fin 2048 → ℝ) (b : Fin 64 → ℝ)
    (n : Fin 256) (k : Fin 64) :
    Spec.act (fun n j => (V n j : EReal)) (fun k j => (W k j : EReal)) (fun k => (b k : EReal)) n k
      = ((max ((∑ j, V n j * W k j) + b k) 0 : ℝ) : EReal) := by
  rw [EReal.coe_strictMono.monotone.map_max]
  simp only [Spec.act, EReal.coe_add, coe_sum, EReal.coe_mul, EReal.coe_zero]

/-! ## The weight normalisation, on real entries -/

/-- A weight-normalised real row is real: with S = Σ_j v k j ^ 2, either S = 0, every entry of the row is 0 and
    the product is 0 whatever the quotient is, or sqrt S is a positive real and the quotient is a real product. -/
theorem wn_real (v : Fin 64 → Fin 2048 → ℝ) (g : Fin 64 → ℝ) :
    ∃ w : Fin 64 → Fin 2048 → ℝ, ∀ k j,
      Spec.wn (fun k j => (v k j : EReal)) (fun k => (g k : EReal)) k j = (w k j : EReal) := by
  refine ⟨fun k j => v k j * (g k * (1 / Real.sqrt (∑ j', v k j' * v k j'))), fun k j => ?_⟩
  have hS : (∑ j' : Fin 2048, (v k j' : EReal) * (v k j' : EReal))
      = ((∑ j', v k j' * v k j' : ℝ) : EReal) := by
    rw [coe_sum]; simp only [EReal.coe_mul]
  have h0 : 0 ≤ ∑ j', v k j' * v k j' := Finset.sum_nonneg fun j' _ => mul_self_nonneg _
  show (v k j : EReal) * Ideal.div (g k : EReal)
      (Ideal.sqrt (∑ j' : Fin 2048, (v k j' : EReal) * (v k j' : EReal))) = _
  rw [hS, Ideal.sqrt_coe, if_neg (not_lt.2 h0)]
  by_cases hz : (∑ j', v k j' * v k j') = 0
  · have hv : v k j = 0 := by
      have := (Finset.sum_eq_zero_iff_of_nonneg (fun j' _ => mul_self_nonneg (v k j'))).1 hz j
        (Finset.mem_univ j)
      exact mul_self_eq_zero.1 this
    simp [hv]
  · have hs : Real.sqrt (∑ j', v k j' * v k j') ≠ 0 := by
      rw [Ne, Real.sqrt_eq_zero h0]; exact hz
    rw [Ideal.div_coe hs, ← EReal.coe_mul, ← EReal.coe_mul]

/-! ## The law: the column-sum arrangement equals the full-matrix arrangement -/

/-- u n m = Σ_k l n k * r m k, over the reals. -/
def u (r l : Fin 256 → Fin 64 → ℝ) (n m : Fin 256) : ℝ := ∑ k : Fin 64, l n k * r m k

/-- d n = (u n n + ε)^(-1/2), over the reals. -/
def d (r l : Fin 256 → Fin 64 → ℝ) (ε : ℝ) (n : Fin 256) : ℝ := (Real.sqrt (u r l n n + ε))⁻¹

theorem u_nonneg (r l : Fin 256 → Fin 64 → ℝ) (hr : ∀ n k, 0 ≤ r n k) (hl : ∀ n k, 0 ≤ l n k)
    (n m : Fin 256) : 0 ≤ u r l n m :=
  Finset.sum_nonneg fun k _ => mul_nonneg (hl n k) (hr m k)

theorem unc_coe (r l : Fin 256 → Fin 64 → ℝ) (n m : Fin 256) :
    Spec.unc (fun n k => (r n k : EReal)) (fun n k => (l n k : EReal)) n m = (u r l n m : EReal) := by
  simp only [Spec.unc, u, coe_sum, EReal.coe_mul]

theorem diag_coe (r l : Fin 256 → Fin 64 → ℝ) (n : Fin 256) :
    Spec.diag (fun n k => (r n k : EReal)) (fun n k => (l n k : EReal)) n = (u r l n n : EReal) := by
  simp only [Spec.diag, u, coe_sum, EReal.coe_mul]

/-- The diagonal taken through the mask is the diagonal: the masked sum has one non-zero term. -/
theorem diagR_coe (r l : Fin 256 → Fin 64 → ℝ) (m : Fin 256) :
    Spec.diagR (fun n k => (r n k : EReal)) (fun n k => (l n k : EReal)) m = (u r l m m : EReal) := by
  simp only [Spec.diagR, Finset.sum_ite_eq', Finset.mem_univ, if_true, unc_coe]

section
variable (r l : Fin 256 → Fin 64 → ℝ) {ε : ℝ} (hε : 0 < ε)
  (hw : Ideal.ofBits .f32 0x358637BD#32 = (ε : EReal))
  (hr : ∀ n k, 0 ≤ r n k) (hl : ∀ n k, 0 ≤ l n k)
include hε hw hr hl

/-- u n n + ε is a positive real, so d n is the real (u n n + ε)^(-1/2). -/
theorem dK_coe (n : Fin 256) :
    Spec.dK (fun n k => (r n k : EReal)) (fun n k => (l n k : EReal)) n = (d r l ε n : EReal) := by
  unfold Spec.dK d
  rw [diag_coe, hw, ← EReal.coe_add, rsqrt_pos (add_pos_of_nonneg_of_pos (u_nonneg r l hr hl n n) hε)]

theorem dR_coe (n : Fin 256) :
    Spec.dR (fun n k => (r n k : EReal)) (fun n k => (l n k : EReal)) n = (d r l ε n : EReal) := by
  unfold Spec.dR d
  rw [diagR_coe, hw, ← EReal.coe_add, rsqrt_pos (add_pos_of_nonneg_of_pos (u_nonneg r l hr hl n n) hε)]

/-- The column-sum arrangement is a real, written over the reals. -/
theorem featsK_coe (V : Fin 256 → Fin 2048 → ℝ) (j : Fin 2048) :
    Spec.featsK (fun n j => (V n j : EReal)) (fun n k => (r n k : EReal)) (fun n k => (l n k : EReal)) j
      = (((∑ n, (257 - d r l ε n * ∑ k, r n k * ∑ n', d r l ε n' * l n' k) * V n j) * (1 / 256) : ℝ) : EReal) := by
  simp only [Spec.featsK, Spec.col, Spec.rdl, Spec.dl, dK_coe r l hε hw hr hl, ofBits_257, ofBits_inv256,
    EReal.coe_mul, coe_sum, EReal.coe_sub]

/-- The full-matrix arrangement is a real, written over the reals. -/
theorem featsR_coe (V : Fin 256 → Fin 2048 → ℝ) (j : Fin 2048) :
    Spec.featsR (fun n j => (V n j : EReal)) (fun n k => (r n k : EReal)) (fun n k => (l n k : EReal)) j
      = (((∑ n, ∑ m, (((1 : ℝ) + (if n = m then 1 else 0)) - (d r l ε m * u r l n m) * d r l ε n) * V m j)
          * (1 / 256) : ℝ) : EReal) := by
  unfold Spec.featsR
  rw [ofBits_256, Ideal.div_coe (by norm_num : (256 : ℝ) ≠ 0)]
  simp only [Spec.Mfull, dR_coe r l hε hw hr hl, unc_coe, ofBits_one, EReal.coe_mul, coe_sum, EReal.coe_sub,
    EReal.coe_add, coe_ite, EReal.coe_one, EReal.coe_zero]

end

/-- A column of the full matrix sums to 257 - d m * Σ_k r m k * (Σ_n d n * l n k): the ones give 256, the mask
    gives 1, and the product term is rearranged by exchanging the sums over n and k. -/
theorem col_sum (dd : Fin 256 → ℝ) (r l : Fin 256 → Fin 64 → ℝ) (m : Fin 256) :
    ∑ n : Fin 256, (((1 : ℝ) + (if n = m then 1 else 0)) - (dd m * u r l n m) * dd n)
      = 257 - dd m * ∑ k, r m k * ∑ n, dd n * l n k := by
  rw [Finset.sum_sub_distrib, Finset.sum_add_distrib, Finset.sum_ite_eq', Finset.sum_const, Finset.card_univ,
    Fintype.card_fin]
  have h : ∑ n, dd m * u r l n m * dd n = dd m * ∑ k, r m k * ∑ n, dd n * l n k := by
    simp only [u, Finset.mul_sum, Finset.sum_mul]
    rw [Finset.sum_comm]
    exact Finset.sum_congr rfl fun k _ => Finset.sum_congr rfl fun n _ => by ring
  rw [h]
  simp only [Finset.mem_univ, if_true, nsmul_eq_mul, mul_one]
  norm_num

/-- The law over the reals. -/
theorem real_law (dd : Fin 256 → ℝ) (V : Fin 256 → Fin 2048 → ℝ) (r l : Fin 256 → Fin 64 → ℝ) (j : Fin 2048) :
    (∑ n, (257 - dd n * ∑ k, r n k * ∑ n', dd n' * l n' k) * V n j) * (1 / 256)
      = (∑ n, ∑ m, (((1 : ℝ) + (if n = m then 1 else 0)) - (dd m * u r l n m) * dd n) * V m j) * (1 / 256) := by
  congr 1
  rw [Finset.sum_comm]
  refine Finset.sum_congr rfl fun m _ => ?_
  rw [← Finset.sum_mul, col_sum]

/-- THE LAW: on real entries with non-negative features the two arrangements agree. -/
theorem feats_eq (V : Fin 256 → Fin 2048 → ℝ) (r l : Fin 256 → Fin 64 → ℝ)
    (hr : ∀ n k, 0 ≤ r n k) (hl : ∀ n k, 0 ≤ l n k) (j : Fin 2048) :
    Spec.featsK (fun n j => (V n j : EReal)) (fun n k => (r n k : EReal)) (fun n k => (l n k : EReal)) j
      = Spec.featsR (fun n j => (V n j : EReal)) (fun n k => (r n k : EReal)) (fun n k => (l n k : EReal)) j := by
  obtain ⟨ε, hε, hw⟩ := ofBits_eps
  rw [featsK_coe r l hε hw hr hl V j, featsR_coe r l hε hw hr hl V j]
  exact congrArg Real.toEReal (real_law (d r l ε) V r l j)

end Cert.Algebra

end
-- ==== Proof.Law.lean ====
/-
  The results of the algebra module, restated for extended-real arguments that are known to be real entry
  by entry: real witnesses are chosen, the arguments are rewritten as inclusions of real families, and the
  real statements apply.
-/
import proofs.«102167_j37211596653081_2_alg».proof.Proof.Algebra

noncomputable section

namespace Cert.Law

open Idealize.ShloMosaic

/-- A weight-normalised row of entrywise real data is entrywise real. -/
theorem wn_is_real (v : Fin 64 → Fin 2048 → EReal) (g : Fin 64 → EReal)
    (hv : ∀ k j, ∃ r : ℝ, v k j = (r : EReal)) (hg : ∀ k, ∃ r : ℝ, g k = (r : EReal)) :
    ∀ k j, ∃ r : ℝ, Spec.wn v g k j = (r : EReal) := by
  choose v' hv' using hv
  choose g' hg' using hg
  have ev : v = fun k j => (v' k j : EReal) := funext fun k => funext fun j => hv' k j
  have eg : g = fun k => (g' k : EReal) := funext fun k => hg' k
  obtain ⟨w, hw⟩ := Algebra.wn_real v' g'
  intro k j
  exact ⟨w k j, by rw [ev, eg]; exact hw k j⟩

/-- With entrywise real data, the two feature matrices are relu outputs, hence non-negative reals, and the
    column-sum arrangement equals the full-matrix arrangement. -/
theorem feats_eq_of_real (V : Fin 256 → Fin 2048 → EReal) (W1 W2 : Fin 64 → Fin 2048 → EReal)
    (c1 c2 : Fin 64 → EReal)
    (hV : ∀ n j, ∃ r : ℝ, V n j = (r : EReal))
    (hW1 : ∀ k j, ∃ r : ℝ, W1 k j = (r : EReal)) (hW2 : ∀ k j, ∃ r : ℝ, W2 k j = (r : EReal))
    (hc1 : ∀ k, ∃ r : ℝ, c1 k = (r : EReal)) (hc2 : ∀ k, ∃ r : ℝ, c2 k = (r : EReal))
    (j : Fin 2048) :
    Spec.featsK V (Spec.act V W1 c1) (Spec.act V W2 c2) j
      = Spec.featsR V (Spec.act V W1 c1) (Spec.act V W2 c2) j := by
  choose V' hV' using hV
  choose A1 hA1 using hW1
  choose A2 hA2 using hW2
  choose b1 hb1 using hc1
  choose b2 hb2 using hc2
  have eV : V = fun n j => (V' n j : EReal) := funext fun n => funext fun j => hV' n j
  have e1 : W1 = fun k j => (A1 k j : EReal) := funext fun k => funext fun j => hA1 k j
  have e2 : W2 = fun k j => (A2 k j : EReal) := funext fun k => funext fun j => hA2 k j
  have f1 : c1 = fun k => (b1 k : EReal) := funext fun k => hb1 k
  have f2 : c2 = fun k => (b2 k : EReal) := funext fun k => hb2 k
  have h1 : Spec.act (fun n j => (V' n j : EReal)) (fun k j => (A1 k j : EReal)) (fun k => (b1 k : EReal))
      = fun n k => ((max ((∑ j, V' n j * A1 k j) + b1 k) 0 : ℝ) : EReal) :=
    funext fun n => funext fun k => Algebra.act_real V' A1 b1 n k
  have h2 : Spec.act (fun n j => (V' n j : EReal)) (fun k j => (A2 k j : EReal)) (fun k => (b2 k : EReal))
      = fun n k => ((max ((∑ j, V' n j * A2 k j) + b2 k) 0 : ℝ) : EReal) :=
    funext fun n => funext fun k => Algebra.act_real V' A2 b2 n k
  rw [eV, e1, e2, f1, f2, h1, h2]
  exact Algebra.feats_eq V' _ _ (fun n k => le_max_right _ _) (fun n k => le_max_right _ _) j

end Cert.Law

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«102167_j37211596653081_2_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«102167_j37211596653081_2_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.RefValue.lean ====
/-
  The reference computes the shared function.

  Read stage by stage, the reference's result is the shared tail applied to feature rows in the full-matrix
  arrangement. When the seven arrays the features depend on hold real numbers the weight-normalised matrices
  are real, both feature matrices are real and non-negative, and the full-matrix arrangement equals the
  column-sum one: so the result is the shared result function.
-/
import proofs.«102167_j37211596653081_2_alg».proof.Proof.RefRead
import proofs.«102167_j37211596653081_2_alg».proof.Proof.Law
import proofs.«102167_j37211596653081_2_alg».proof.Proof.LibFinite
import proofs.«102167_j37211596653081_2_alg».proof.Proof.Result

noncomputable section

namespace Cert.RefValue

open Idealize.ShloMosaic Idealize.ShloMosaic.ValueIdx Cert.ReferenceIdeal Cert.ReferenceIdeal.Read Cert.Gcn

variable (x0 : (⟨S64x256x2048, .f32⟩ : BufTy).Contents (Elt Ideal)) (x1 : (⟨S64x2048, .f32⟩ : BufTy).Contents (Elt Ideal))
  (x2 x3 : (⟨S64, .f32⟩ : BufTy).Contents (Elt Ideal)) (x4 : (⟨S64x2048, .f32⟩ : BufTy).Contents (Elt Ideal))
  (x5 x6 : (⟨S64, .f32⟩ : BufTy).Contents (Elt Ideal)) (x7 : (⟨S1024x2048, .f32⟩ : BufTy).Contents (Elt Ideal))
  (x8 x9 x10 : (⟨S1024, .f32⟩ : BufTy).Contents (Elt Ideal))

/-- The first weight-normalised matrix, as the reference computes it. -/
theorem weights_right : (fun k j => val_main_v4 (F := Ideal) x1 x2 (ix2 k j)) = Cert.Result.weights x1 x2 :=
  funext fun k => funext fun j => Cert.RefRead.wn_read x1 x2 k j

/-- The second weight-normalised matrix, as the reference computes it. -/
theorem weights_left : (fun k j => val_main_v9 (F := Ideal) x4 x5 (ix2 k j)) = Cert.Result.weights x4 x5 :=
  funext fun k => funext fun j => Cert.RefRead.wn_read_left x4 x5 k j

/-- The reference's feature row of batch b is the column-sum arrangement's, when the inputs are real. -/
theorem feats_ref (h0 : Finite x0) (h1 : Finite x1) (h2 : Finite x2) (h3 : Finite x3) (h4 : Finite x4) (h5 : Finite x5)
    (h6 : Finite x6) (b : Fin 64) (j : Fin 2048) :
    val_main_v51 (F := Ideal) x0 x1 x2 x3 x4 x5 x6 (ix2 b j) = Cert.Result.feats x0 x1 x2 x3 x4 x5 x6 b j := by
  rw [Cert.RefRead.feats_read]
  have hR : (fun n k => val_main_v14 (F := Ideal) x0 x1 x2 x3 (ix3 b n k))
      = Spec.act (Cert.Result.batch x0 b) (Cert.Result.weights x1 x2) (fun k => x3 (ix1 k)) := by
    funext n k
    rw [Cert.RefRead.act_read, weights_right]
    rfl
  have hL : (fun n k => val_main_v19 (F := Ideal) x0 x4 x5 x6 (ix3 b n k))
      = Spec.act (Cert.Result.batch x0 b) (Cert.Result.weights x4 x5) (fun k => x6 (ix1 k)) := by
    funext n k
    rw [Cert.RefRead.act_read_left, weights_left]
    rfl
  rw [hR, hL]
  exact (Cert.Law.feats_eq_of_real (Cert.Result.batch x0 b) (Cert.Result.weights x1 x2) (Cert.Result.weights x4 x5)
    (fun k => x3 (ix1 k)) (fun k => x6 (ix1 k))
    (fun n j => h0 (ix3 b n j))
    (Cert.Law.wn_is_real _ _ (fun k j => h1 (ix2 k j)) (fun k => h2 (ix1 k)))
    (Cert.Law.wn_is_real _ _ (fun k j => h4 (ix2 k j)) (fun k => h5 (ix1 k)))
    (fun k => h3 (ix1 k)) (fun k => h6 (ix1 k)) j).symm

/-- The reference's result is the shared result function, when the inputs are real. -/
theorem ref_eq (h0 : Finite x0) (h1 : Finite x1) (h2 : Finite x2) (h3 : Finite x3) (h4 : Finite x4) (h5 : Finite x5)
    (h6 : Finite x6) :
    val_main_v81 (F := Ideal) x0 x1 x2 x3 x4 x5 x6 x7 x8 x9 x10 = Cert.Result.result x0 x1 x2 x3 x4 x5 x6 x7 x8 x9 x10 := by
  funext i
  obtain ⟨b, e, rfl⟩ : ∃ (b : Fin 64) (e : Fin 1024), i = ix2 b e := ⟨i 0, i 1, eq_ix2 i⟩
  rw [Cert.RefRead.tail_read]
  have hF : (fun b j => val_main_v51 (F := Ideal) x0 x1 x2 x3 x4 x5 x6 (ix2 b j)) = Cert.Result.feats x0 x1 x2 x3 x4 x5 x6 :=
    funext fun b => funext fun j => feats_ref x0 x1 x2 x3 x4 x5 x6 h0 h1 h2 h3 h4 h5 h6 b j
  rw [hF]
  rfl

end Cert.RefValue

end
-- ==== Proof.Finite.lean ====
/-
  The precondition, decoded: the seven arrays the first launch depends on hold real numbers.

  The precondition is a conjunction, one conjunct per input array, each the conjunction over the array of
  the test |x| < +∞. Evaluated at the scalar result's one index it splits into its conjuncts; each conjunct
  gives that every entry of its array is a real.
-/
import proofs.«102167_j37211596653081_2_alg».proof.Pre_finite_inputs
import proofs.«102167_j37211596653081_2_alg».proof.Proof.LibFinite

noncomputable section

namespace Cert.Hand

open Idealize.ShloMosaic Idealize.ShloMosaic.ValueIdx Cert.Pre_finite_inputs Cert.Gcn

/-- Under the precondition the batched input, both weight matrices, both gains and both biases are real. -/
theorem finite_args [Cert.Pre_finite_inputs.Facts]
    (a0 : FVec Ideal S64x256x2048 .f32) (a1 : FVec Ideal S64x2048 .f32) (a2 : FVec Ideal S64 .f32) (a3 : FVec Ideal S64 .f32)
    (a4 : FVec Ideal S64x2048 .f32) (a5 : FVec Ideal S64 .f32) (a6 : FVec Ideal S64 .f32) (a7 : FVec Ideal S1024x2048 .f32)
    (a8 : FVec Ideal S1024 .f32) (a9 : FVec Ideal S1024 .f32) (a10 : FVec Ideal S1024 .f32)
    (h : fn (F := Ideal) a0 a1 a2 a3 a4 a5 a6 a7 a8 a9 a10 = fun _ => 1#1) :
    Finite a0 ∧ Finite a1 ∧ Finite a2 ∧ Finite a3 ∧ Finite a4 ∧ Finite a5 ∧ Finite a6 := by
  have h0 := congrFun h ix0
  dsimp only [fn, fn_part1, fn_part2, fn_part3, andi] at h0
  simp only [IntOp.andi_eq_one] at h0
  obtain ⟨⟨⟨⟨⟨⟨⟨⟨⟨⟨e0, e1⟩, e2⟩, e3⟩, e4⟩, e5⟩, e6⟩, -⟩, -⟩, -⟩, -⟩ := h0
  exact ⟨finite_of_all a0 _ _ _ e0, finite_of_all a1 _ _ _ e1, finite_of_all a2 _ _ _ e2, finite_of_all a3 _ _ _ e3,
    finite_of_all a4 _ _ _ e4, finite_of_all a5 _ _ _ e5, finite_of_all a6 _ _ _ e6⟩

end Cert.Hand

end
-- ==== Proof.lean ====
/-
  Two programs for one function of eleven real arrays.

  Per batch, with V the batch's 256 x 2048 matrix and r, l the outputs of two affine layers with
  weight-normalised rows followed by relu, put u n m = Σ_k l n k · r m k and d n = (u n n + ε)^(-1/2). The
  reference forms the 256 x 256 matrix M n m = 1 + [n = m] − d m · u n m · d n, multiplies it into V and
  averages the rows. The kernel uses Σ_n M n m = 257 − d m · Σ_k r m k · (Σ_n d n · l n k): it multiplies the rows of V
  by that column sum, adds them up and scales by 1/256; its sixteen grid points each do four batches, and a
  second launch applies the linear layer and the batch normalisation the reference applies on the host. On
  the extended reals the two arrangements agree because every quantity is a real: the inputs by the
  precondition, a normalised weight row because a row of norm zero is a row of zeros (and zero times anything
  is zero), the relu outputs because they are maxima of reals with zero, and d because u n n ≥ 0 < ε. The
  tail is the same expression on both sides, so it needs no finiteness.

  The three frames are the generated ones (the reference's is its generated run with the result dropped);
  no operation was rewritten by the idealization, so the preservation claim is trivial; the value claim
  names both results as the shared result function of the argument arrays.
-/
import proofs.«102167_j37211596653081_2_alg».proof.Defs
import proofs.«102167_j37211596653081_2_alg».proof.Proof.Gen.Kernel
import proofs.«102167_j37211596653081_2_alg».proof.Proof.Gen.Kernel.Skeleton
import proofs.«102167_j37211596653081_2_alg».proof.Proof.Gen.Kernel.Launch
import proofs.«102167_j37211596653081_2_alg».proof.Proof.Gen.Kernel.Points
import proofs.«102167_j37211596653081_2_alg».proof.Proof.Gen.Kernel.Frame
import proofs.«102167_j37211596653081_2_alg».proof.Proof.Gen.KernelIdeal
import proofs.«102167_j37211596653081_2_alg».proof.Proof.Gen.KernelIdeal.Skeleton
import proofs.«102167_j37211596653081_2_alg».proof.Proof.Gen.KernelIdeal.Launch
import proofs.«102167_j37211596653081_2_alg».proof.Proof.Gen.KernelIdeal.Points
import proofs.«102167_j37211596653081_2_alg».proof.Proof.Gen.KernelIdeal.Frame
import proofs.«102167_j37211596653081_2_alg».proof.Proof.Gen.ReferenceIdeal
import proofs.«102167_j37211596653081_2_alg».proof.Proof.Gen.Pre_finite_inputs
import proofs.«102167_j37211596653081_2_alg».proof.Proof.Gen.ReferenceIdeal.Run
import proofs.«102167_j37211596653081_2_alg».proof.Proof.Gen.ReferenceIdeal.Read
import proofs.«102167_j37211596653081_2_alg».proof.Proof.KernelRun
import proofs.«102167_j37211596653081_2_alg».proof.Proof.KernelValue
import proofs.«102167_j37211596653081_2_alg».proof.Proof.RefValue
import proofs.«102167_j37211596653081_2_alg».proof.Proof.Finite
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the shared result function of the argument arrays in their result array. -/
theorem algebraic : Cert.algebraic_KernelIdeal_ReferenceIdeal := by
  intro m ρ m' ρ' hpre hagree
  refine ⟨fun c => Cert.Result.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Hand.kernel_final m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v81_eq]
    obtain ⟨a0, a1, a2, a3, a4, a5, a6, a7, a8, a9, a10⟩ := hagree c
    rw [a0, a1, a2, a3, a4, a5, a6, a7, a8, a9, a10]
    obtain ⟨f0, f1, f2, f3, f4, f5, f6⟩ := Cert.Hand.finite_args _ _ _ _ _ _ _ _ _ _ _ (hpre c)
    exact Cert.RefValue.ref_eq _ _ _ _ _ _ _ _ _ _ _ f0 f1 f2 f3 f4 f5 f6

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
